-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v295) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S35x35 : Shape := ⟨2, ![35, 35]⟩
abbrev S4x35x140 : Shape := ⟨3, ![4, 35, 140]⟩
abbrev S4x2x140x140 : Shape := ⟨4, ![4, 2, 140, 140]⟩
abbrev S4x140 : Shape := ⟨2, ![4, 140]⟩
abbrev S3x140 : Shape := ⟨2, ![3, 140]⟩
abbrev S4x140x280 : Shape := ⟨3, ![4, 140, 280]⟩
abbrev S4x2x280x280 : Shape := ⟨4, ![4, 2, 280, 280]⟩
abbrev S4x280 : Shape := ⟨2, ![4, 280]⟩
abbrev S3x280 : Shape := ⟨2, ![3, 280]⟩
abbrev S280x35 : Shape := ⟨2, ![280, 35]⟩
abbrev S35 : Shape := ⟨1, ![35]⟩
abbrev S_ : Shape := ⟨0, ![]⟩

class Facts : Prop where
  bcast_S_S35x35 : S_.BroadcastsInDim S35x35 (![] : Fin 0 → Fin S35x35.rank)
  reducesTo_S35x35_S_d0_1 : S35x35.ReducesTo [0, 1] S_
  h_S_ : 0 < S_.numel
  bcast_S_S4x35x140 : S_.BroadcastsInDim S4x35x140 (![] : Fin 0 → Fin S4x35x140.rank)
  reducesTo_S4x35x140_S_d0_1_2 : S4x35x140.ReducesTo [0, 1, 2] S_
  bcast_S_S4x2x140x140 : S_.BroadcastsInDim S4x2x140x140 (![] : Fin 0 → Fin S4x2x140x140.rank)
  reducesTo_S4x2x140x140_S_d0_1_2_3 : S4x2x140x140.ReducesTo [0, 1, 2, 3] S_
  bcast_S_S4x140 : S_.BroadcastsInDim S4x140 (![] : Fin 0 → Fin S4x140.rank)
  reducesTo_S4x140_S_d0_1 : S4x140.ReducesTo [0, 1] S_
  bcast_S_S3x140 : S_.BroadcastsInDim S3x140 (![] : Fin 0 → Fin S3x140.rank)
  reducesTo_S3x140_S_d0_1 : S3x140.ReducesTo [0, 1] S_
  bcast_S_S4x140x280 : S_.BroadcastsInDim S4x140x280 (![] : Fin 0 → Fin S4x140x280.rank)
  reducesTo_S4x140x280_S_d0_1_2 : S4x140x280.ReducesTo [0, 1, 2] S_
  bcast_S_S4x2x280x280 : S_.BroadcastsInDim S4x2x280x280 (![] : Fin 0 → Fin S4x2x280x280.rank)
  reducesTo_S4x2x280x280_S_d0_1_2_3 : S4x2x280x280.ReducesTo [0, 1, 2, 3] S_
  bcast_S_S4x280 : S_.BroadcastsInDim S4x280 (![] : Fin 0 → Fin S4x280.rank)
  reducesTo_S4x280_S_d0_1 : S4x280.ReducesTo [0, 1] S_
  bcast_S_S3x280 : S_.BroadcastsInDim S3x280 (![] : Fin 0 → Fin S3x280.rank)
  reducesTo_S3x280_S_d0_1 : S3x280.ReducesTo [0, 1] S_
  bcast_S_S280x35 : S_.BroadcastsInDim S280x35 (![] : Fin 0 → Fin S280x35.rank)
  reducesTo_S280x35_S_d0_1 : S280x35.ReducesTo [0, 1] S_
  bcast_S_S35 : S_.BroadcastsInDim S35 (![] : Fin 0 → Fin S35.rank)
  reducesTo_S35_S_d0 : S35.ReducesTo [0] S_

variable [Facts]

def fn_part3 {F : FTy → Type} [FloatOps F] (main_arg11 : FVec F S280x35 .f32) (main_arg12 : FVec F S35 .f32) (main_v48 : IVec S_ 1) (main_v49 : FVec F S4x280 .f32) (main_v50 : FVec F S4x280 .f32) : IVec S_ 1 :=
  let main_v51 : IVec S4x280 1 := cmpf .olt main_v49 main_v50
  let main_c_19 : IVec S_ 1 := constantI S_ 1 1#1
  let main_v52 : IVec S_ 1 := (fun x v => Host.reduce IntOp.andi x v reducesTo_S4x280_S_d0_1 h_S_) main_v51 main_c_19
  let main_v53 : IVec S_ 1 := andi main_v48 main_v52
  let main_v54 : FVec F S280x35 .f32 := Host.absf main_arg11
  let main_cst_20 : FVec F S_ .f32 := constant S_ .f32 0x7F800000#32
  let main_v55 : FVec F S280x35 .f32 := broadcastInDim S280x35 ![] bcast_S_S280x35 main_cst_20
  let main_v56 : IVec S280x35 1 := cmpf .olt main_v54 main_v55
  let main_c_21 : IVec S_ 1 := constantI S_ 1 1#1
  let main_v57 : IVec S_ 1 := (fun x v => Host.reduce IntOp.andi x v reducesTo_S280x35_S_d0_1 h_S_) main_v56 main_c_21
  let main_v58 : IVec S_ 1 := andi main_v53 main_v57
  let main_v59 : FVec F S35 .f32 := Host.absf main_arg12
  let main_cst_22 : FVec F S_ .f32 := constant S_ .f32 0x7F800000#32
  let main_v60 : FVec F S35 .f32 := broadcastInDim S35 ![] bcast_S_S35 main_cst_22
  let main_v61 : IVec S35 1 := cmpf .olt main_v59 main_v60
  let main_c_23 : IVec S_ 1 := constantI S_ 1 1#1
  let main_v62 : IVec S_ 1 := (fun x v => Host.reduce IntOp.andi x v reducesTo_S35_S_d0 h_S_) main_v61 main_c_23
  let main_v63 : IVec S_ 1 := andi main_v58 main_v62
  main_v63

def fn_part2 {F : FTy → Type} [FloatOps F] (main_arg7 : FVec F S4x2x280x280 .f32) (main_arg8 : FVec F S4x280 .f32) (main_arg9 : FVec F S3x280 .f32) (main_arg10 : FVec F S4x280 .f32) (main_arg11 : FVec F S280x35 .f32) (main_arg12 : FVec F S35 .f32) (main_v33 : IVec S_ 1) : IVec S_ 1 :=
  let main_v34 : FVec F S4x2x280x280 .f32 := Host.absf main_arg7
  let main_cst_12 : FVec F S_ .f32 := constant S_ .f32 0x7F800000#32
  let main_v35 : FVec F S4x2x280x280 .f32 := broadcastInDim S4x2x280x280 ![] bcast_S_S4x2x280x280 main_cst_12
  let main_v36 : IVec S4x2x280x280 1 := cmpf .olt main_v34 main_v35
  let main_c_13 : IVec S_ 1 := constantI S_ 1 1#1
  let main_v37 : IVec S_ 1 := (fun x v => Host.reduce IntOp.andi x v reducesTo_S4x2x280x280_S_d0_1_2_3 h_S_) main_v36 main_c_13
  let main_v38 : IVec S_ 1 := andi main_v33 main_v37
  let main_v39 : FVec F S4x280 .f32 := Host.absf main_arg8
  let main_cst_14 : FVec F S_ .f32 := constant S_ .f32 0x7F800000#32
  let main_v40 : FVec F S4x280 .f32 := broadcastInDim S4x280 ![] bcast_S_S4x280 main_cst_14
  let main_v41 : IVec S4x280 1 := cmpf .olt main_v39 main_v40
  let main_c_15 : IVec S_ 1 := constantI S_ 1 1#1
  let main_v42 : IVec S_ 1 := (fun x v => Host.reduce IntOp.andi x v reducesTo_S4x280_S_d0_1 h_S_) main_v41 main_c_15
  let main_v43 : IVec S_ 1 := andi main_v38 main_v42
  let main_v44 : FVec F S3x280 .f32 := Host.absf main_arg9
  let main_cst_16 : FVec F S_ .f32 := constant S_ .f32 0x7F800000#32
  let main_v45 : FVec F S3x280 .f32 := broadcastInDim S3x280 ![] bcast_S_S3x280 main_cst_16
  let main_v46 : IVec S3x280 1 := cmpf .olt main_v44 main_v45
  let main_c_17 : IVec S_ 1 := constantI S_ 1 1#1
  let main_v47 : IVec S_ 1 := (fun x v => Host.reduce IntOp.andi x v reducesTo_S3x280_S_d0_1 h_S_) main_v46 main_c_17
  let main_v48 : IVec S_ 1 := andi main_v43 main_v47
  let main_v49 : FVec F S4x280 .f32 := Host.absf main_arg10
  let main_cst_18 : FVec F S_ .f32 := constant S_ .f32 0x7F800000#32
  let main_v50 : FVec F S4x280 .f32 := broadcastInDim S4x280 ![] bcast_S_S4x280 main_cst_18
  fn_part3 (F := F) main_arg11 main_arg12 main_v48 main_v49 main_v50

def fn_part1 {F : FTy → Type} [FloatOps F] (main_arg4 : FVec F S3x140 .f32) (main_arg5 : FVec F S4x140 .f32) (main_arg6 : FVec F S4x140x280 .f32) (main_arg7 : FVec F S4x2x280x280 .f32) (main_arg8 : FVec F S4x280 .f32) (main_arg9 : FVec F S3x280 .f32) (main_arg10 : FVec F S4x280 .f32) (main_arg11 : FVec F S280x35 .f32) (main_arg12 : FVec F S35 .f32) (main_v13 : IVec S_ 1) (main_v16 : IVec S4x140 1) : IVec S_ 1 :=
  let main_c_5 : IVec S_ 1 := constantI S_ 1 1#1
  let main_v17 : IVec S_ 1 := (fun x v => Host.reduce IntOp.andi x v reducesTo_S4x140_S_d0_1 h_S_) main_v16 main_c_5
  let main_v18 : IVec S_ 1 := andi main_v13 main_v17
  let main_v19 : FVec F S3x140 .f32 := Host.absf main_arg4
  let main_cst_6 : FVec F S_ .f32 := constant S_ .f32 0x7F800000#32
  let main_v20 : FVec F S3x140 .f32 := broadcastInDim S3x140 ![] bcast_S_S3x140 main_cst_6
  let main_v21 : IVec S3x140 1 := cmpf .olt main_v19 main_v20
  let main_c_7 : IVec S_ 1 := constantI S_ 1 1#1
  let main_v22 : IVec S_ 1 := (fun x v => Host.reduce IntOp.andi x v reducesTo_S3x140_S_d0_1 h_S_) main_v21 main_c_7
  let main_v23 : IVec S_ 1 := andi main_v18 main_v22
  let main_v24 : FVec F S4x140 .f32 := Host.absf main_arg5
  let main_cst_8 : FVec F S_ .f32 := constant S_ .f32 0x7F800000#32
  let main_v25 : FVec F S4x140 .f32 := broadcastInDim S4x140 ![] bcast_S_S4x140 main_cst_8
  let main_v26 : IVec S4x140 1 := cmpf .olt main_v24 main_v25
  let main_c_9 : IVec S_ 1 := constantI S_ 1 1#1
  let main_v27 : IVec S_ 1 := (fun x v => Host.reduce IntOp.andi x v reducesTo_S4x140_S_d0_1 h_S_) main_v26 main_c_9
  let main_v28 : IVec S_ 1 := andi main_v23 main_v27
  let main_v29 : FVec F S4x140x280 .f32 := Host.absf main_arg6
  let main_cst_10 : FVec F S_ .f32 := constant S_ .f32 0x7F800000#32
  let main_v30 : FVec F S4x140x280 .f32 := broadcastInDim S4x140x280 ![] bcast_S_S4x140x280 main_cst_10
  let main_v31 : IVec S4x140x280 1 := cmpf .olt main_v29 main_v30
  let main_c_11 : IVec S_ 1 := constantI S_ 1 1#1
  let main_v32 : IVec S_ 1 := (fun x v => Host.reduce IntOp.andi x v reducesTo_S4x140x280_S_d0_1_2 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S35x35 .f32) (main_arg1 : FVec F S4x35x140 .f32) (main_arg2 : FVec F S4x2x140x140 .f32) (main_arg3 : FVec F S4x140 .f32) (main_arg4 : FVec F S3x140 .f32) (main_arg5 : FVec F S4x140 .f32) (main_arg6 : FVec F S4x140x280 .f32) (main_arg7 : FVec F S4x2x280x280 .f32) (main_arg8 : FVec F S4x280 .f32) (main_arg9 : FVec F S3x280 .f32) (main_arg10 : FVec F S4x280 .f32) (main_arg11 : FVec F S280x35 .f32) (main_arg12 : FVec F S35 .f32) : IVec S_ 1 :=
  let main_v0 : FVec F S35x35 .f32 := Host.absf main_arg0
  let main_cst : FVec F S_ .f32 := constant S_ .f32 0x7F800000#32
  let main_v1 : FVec F S35x35 .f32 := broadcastInDim S35x35 ![] bcast_S_S35x35 main_cst
  let main_v2 : IVec S35x35 1 := cmpf .olt main_v0 main_v1
  let main_c : IVec S_ 1 := constantI S_ 1 1#1
  let main_v3 : IVec S_ 1 := (fun x v => Host.reduce IntOp.andi x v reducesTo_S35x35_S_d0_1 h_S_) main_v2 main_c
  let main_v4 : FVec F S4x35x140 .f32 := Host.absf main_arg1
  let main_cst_0 : FVec F S_ .f32 := constant S_ .f32 0x7F800000#32
  let main_v5 : FVec F S4x35x140 .f32 := broadcastInDim S4x35x140 ![] bcast_S_S4x35x140 main_cst_0
  let main_v6 : IVec S4x35x140 1 := cmpf .olt main_v4 main_v5
  let main_c_1 : IVec S_ 1 := constantI S_ 1 1#1
  let main_v7 : IVec S_ 1 := (fun x v => Host.reduce IntOp.andi x v reducesTo_S4x35x140_S_d0_1_2 h_S_) main_v6 main_c_1
  let main_v8 : IVec S_ 1 := andi main_v3 main_v7
  let main_v9 : FVec F S4x2x140x140 .f32 := Host.absf main_arg2
  let main_cst_2 : FVec F S_ .f32 := constant S_ .f32 0x7F800000#32
  let main_v10 : FVec F S4x2x140x140 .f32 := broadcastInDim S4x2x140x140 ![] bcast_S_S4x2x140x140 main_cst_2
  let main_v11 : IVec S4x2x140x140 1 := cmpf .olt main_v9 main_v10
  let main_c_3 : IVec S_ 1 := constantI S_ 1 1#1
  let main_v12 : IVec S_ 1 := (fun x v => Host.reduce IntOp.andi x v reducesTo_S4x2x140x140_S_d0_1_2_3 h_S_) main_v11 main_c_3
  let main_v13 : IVec S_ 1 := andi main_v8 main_v12
  let main_v14 : FVec F S4x140 .f32 := Host.absf main_arg3
  let main_cst_4 : FVec F S_ .f32 := constant S_ .f32 0x7F800000#32
  let main_v15 : FVec F S4x140 .f32 := broadcastInDim S4x140 ![] bcast_S_S4x140 main_cst_4
  let main_v16 : IVec S4x140 1 := cmpf .olt main_v14 main_v15
  fn_part1 (F := F) main_arg4 main_arg5 main_arg6 main_arg7 main_arg8 main_arg9 main_arg10 main_arg11 main_arg12 main_v13 main_v16
-- ==== Kernel.lean ====
abbrev S35x35 : Shape := ⟨2, ![35, 35]⟩
abbrev S4x35x140 : Shape := ⟨3, ![4, 35, 140]⟩
abbrev S4x2x140x140 : Shape := ⟨4, ![4, 2, 140, 140]⟩
abbrev S4x140 : Shape := ⟨2, ![4, 140]⟩
abbrev S3x140 : Shape := ⟨2, ![3, 140]⟩
abbrev S4x140x280 : Shape := ⟨3, ![4, 140, 280]⟩
abbrev S4x2x280x280 : Shape := ⟨4, ![4, 2, 280, 280]⟩
abbrev S4x280 : Shape := ⟨2, ![4, 280]⟩
abbrev S3x280 : Shape := ⟨2, ![3, 280]⟩
abbrev S280x35 : Shape := ⟨2, ![280, 35]⟩
abbrev S35 : Shape := ⟨1, ![35]⟩
abbrev S35x1 : Shape := ⟨2, ![35, 1]⟩
abbrev S1x35 : Shape := ⟨2, ![1, 35]⟩
abbrev S35x140 : Shape := ⟨2, ![35, 140]⟩
abbrev S1x35x140 : Shape := ⟨3, ![1, 35, 140]⟩
abbrev S1x1x140x140 : Shape := ⟨4, ![1, 1, 140, 140]⟩
abbrev S140x140 : Shape := ⟨2, ![140, 140]⟩
abbrev S1x140 : Shape := ⟨2, ![1, 140]⟩
abbrev S140 : Shape := ⟨1, ![140]⟩
abbrev S35x280 : Shape := ⟨2, ![35, 280]⟩
abbrev S1x140x280 : Shape := ⟨3, ![1, 140, 280]⟩
abbrev S140x280 : Shape := ⟨2, ![140, 280]⟩
abbrev S1x1x280x280 : Shape := ⟨4, ![1, 1, 280, 280]⟩
abbrev S280x280 : Shape := ⟨2, ![280, 280]⟩
abbrev S1x280 : Shape := ⟨2, ![1, 280]⟩
abbrev S280 : Shape := ⟨1, ![280]⟩

abbrev nBuf : Space → Nat
  | .hbm => 14
  | .vmem => 14
  | .smem => 0
  | _ => 0

abbrev bufTy : (tb : Table) → Fin (tcTables nBuf tb) → BufTy
  | .hbm, ⟨0, _⟩ => ⟨S35x35, .f32⟩
  | .hbm, ⟨1, _⟩ => ⟨S4x35x140, .f32⟩
  | .hbm, ⟨2, _⟩ => ⟨S4x2x140x140, .f32⟩
  | .hbm, ⟨3, _⟩ => ⟨S4x140, .f32⟩
  | .hbm, ⟨4, _⟩ => ⟨S3x140, .f32⟩
  | .hbm, ⟨5, _⟩ => ⟨S4x140, .f32⟩
  | .hbm, ⟨6, _⟩ => ⟨S4x140x280, .f32⟩
  | .hbm, ⟨7, _⟩ => ⟨S4x2x280x280, .f32⟩
  | .hbm, ⟨8, _⟩ => ⟨S4x280, .f32⟩
  | .hbm, ⟨9, _⟩ => ⟨S3x280, .f32⟩
  | .hbm, ⟨10, _⟩ => ⟨S4x280, .f32⟩
  | .hbm, ⟨11, _⟩ => ⟨S280x35, .f32⟩
  | .hbm, ⟨12, _⟩ => ⟨S35, .f32⟩
  | .hbm, ⟨13, _⟩ => ⟨S35x35, .f32⟩
  | .local _ .vmem, ⟨0, _⟩ => ⟨S35x35, .f32⟩
  | .local _ .vmem, ⟨1, _⟩ => ⟨S4x35x140, .f32⟩
  | .local _ .vmem, ⟨2, _⟩ => ⟨S4x2x140x140, .f32⟩
  | .local _ .vmem, ⟨3, _⟩ => ⟨S4x140, .f32⟩
  | .local _ .vmem, ⟨4, _⟩ => ⟨S3x140, .f32⟩
  | .local _ .vmem, ⟨5, _⟩ => ⟨S4x140, .f32⟩
  | .local _ .vmem, ⟨6, _⟩ => ⟨S4x140x280, .f32⟩
  | .local _ .vmem, ⟨7, _⟩ => ⟨S4x2x280x280, .f32⟩
  | .local _ .vmem, ⟨8, _⟩ => ⟨S4x280, .f32⟩
  | .local _ .vmem, ⟨9, _⟩ => ⟨S3x280, .f32⟩
  | .local _ .vmem, ⟨10, _⟩ => ⟨S4x280, .f32⟩
  | .local _ .vmem, ⟨11, _⟩ => ⟨S280x35, .f32⟩
  | .local _ .vmem, ⟨12, _⟩ => ⟨S35, .f32⟩
  | .local _ .vmem, ⟨13, _⟩ => ⟨S35x35, .f32⟩
  | _, _ => ⟨S35x35, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S35x35 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x35x140 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x2x140x140 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x140 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x140 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x140 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x140x280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x2x280x280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x280 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S280x35 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S35 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S35x35 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

class Facts₀ : Prop where
  inb_S35x35_S35x35_0_0 : ∀ a, (![0, 0] : Fin 2 → Nat) a + S35x35.size a ≤ S35x35.size a
  h_S35x35 : 0 < S35x35.numel
  iota_S35x35_d0_w32 : S35x35.Iotas .tc 32 [0]
  iota_S35x35_d1_w32 : S35x35.Iotas .tc 32 [1]
  natLt_1_32 : 1 < 32
  reduces_S35x35_S35 : S35x35.Reduces [1] S35
  shapeCasts_S35_S35x1 : S35.ShapeCasts S35x1
  reduces_S35x35_S35_2 : S35x35.Reduces [0] S35
  shapeCasts_S35_S1x35 : S35.ShapeCasts S1x35
  broadcasts_S35x1_S35x35 : S35x1.Broadcasts S35x35
  broadcasts_S1x35_S35x35 : S1x35.Broadcasts S35x35
  inb_S4x35x140_S4x35x140_0_0_0 : ∀ a, (![0, 0, 0] : Fin 3 → Nat) a + S4x35x140.size a ≤ S4x35x140.size a
  h_S4x35x140 : 0 < S4x35x140.numel
  inb_S4x2x140x140_S4x2x140x140_0_0_0_0 : ∀ a, (![0, 0, 0, 0] : Fin 4 → Nat) a + S4x2x140x140.size a ≤ S4x2x140x140.size a
  h_S4x2x140x140 : 0 < S4x2x140x140.numel
  inb_S4x140_S4x140_0_0 : ∀ a, (![0, 0] : Fin 2 → Nat) a + S4x140.size a ≤ S4x140.size a
  h_S4x140 : 0 < S4x140.numel
  inb_S3x140_S3x140_0_0 : ∀ a, (![0, 0] : Fin 2 → Nat) a + S3x140.size a ≤ S3x140.size a
  h_S3x140 : 0 < S3x140.numel
  slices_S4x35x140_o0_0_0_S1x35x140 : S4x35x140.Slices ![0, 0, 0] S1x35x140
  shapeCasts_S1x35x140_S35x140 : S1x35x140.ShapeCasts S35x140
  bitsLt_bf16_f32 : FTy.bits .bf16 < FTy.bits .f32
  slices_S4x2x140x140_o0_0_0_0_S1x1x140x140 : S4x2x140x140.Slices ![0, 0, 0, 0] S1x1x140x140
  shapeCasts_S1x1x140x140_S140x140 : S1x1x140x140.ShapeCasts S140x140
  slices_S4x2x140x140_o0_1_0_0_S1x1x140x140 : S4x2x140x140.Slices ![0, 1, 0, 0] S1x1x140x140
  slices_S4x140_o0_0_S1x140 : S4x140.Slices ![0, 0] S1x140
  shapeCasts_S1x140_S140 : S1x140.ShapeCasts S140
  shapeCasts_S140_S1x140 : S140.ShapeCasts S1x140
  broadcasts_S1x140_S35x140 : S1x140.Broadcasts S35x140
  slices_S3x140_o0_0_S1x140 : S3x140.Slices ![0, 0] S1x140
  slices_S4x35x140_o1_0_0_S1x35x140 : S4x35x140.Slices ![1, 0, 0] S1x35x140
  slices_S4x2x140x140_o1_0_0_0_S1x1x140x140 : S4x2x140x140.Slices ![1, 0, 0, 0] S1x1x140x140
  slices_S4x2x140x140_o1_1_0_0_S1x1x140x140 : S4x2x140x140.Slices ![1, 1, 0, 0] S1x1x140x140
  slices_S4x140_o1_0_S1x140 : S4x140.Slices ![1, 0] S1x140
  slices_S3x140_o1_0_S1x140 : S3x140.Slices ![1, 0] S1x140
  slices_S4x35x140_o2_0_0_S1x35x140 : S4x35x140.Slices ![2, 0, 0] S1x35x140
  slices_S4x2x140x140_o2_0_0_0_S1x1x140x140 : S4x2x140x140.Slices ![2, 0, 0, 0] S1x1x140x140
  slices_S4x2x140x140_o2_1_0_0_S1x1x140x140 : S4x2x140x140.Slices ![2, 1, 0, 0] S1x1x140x140
  slices_S4x140_o2_0_S1x140 : S4x140.Slices ![2, 0] S1x140
  slices_S4x35x140_o3_0_0_S1x35x140 : S4x35x140.Slices ![3, 0, 0] S1x35x140
  slices_S4x2x140x140_o3_0_0_0_S1x1x140x140 : S4x2x140x140.Slices ![3, 0, 0, 0] S1x1x140x140
  slices_S4x2x140x140_o3_1_0_0_S1x1x140x140 : S4x2x140x140.Slices ![3, 1, 0, 0] S1x1x140x140
  slices_S4x140_o3_0_S1x140 : S4x140.Slices ![3, 0] S1x140
  slices_S3x140_o2_0_S1x140 : S3x140.Slices ![2, 0] S1x140
  inb_S4x140x280_S4x140x280_0_0_0 : ∀ a, (![0, 0, 0] : Fin 3 → Nat) a + S4x140x280.size a ≤ S4x140x280.size a
  h_S4x140x280 : 0 < S4x140x280.numel
  inb_S4x2x280x280_S4x2x280x280_0_0_0_0 : ∀ a, (![0, 0, 0, 0] : Fin 4 → Nat) a + S4x2x280x280.size a ≤ S4x2x280x280.size a
  h_S4x2x280x280 : 0 < S4x2x280x280.numel
  inb_S4x280_S4x280_0_0 : ∀ a, (![0, 0] : Fin 2 → Nat) a + S4x280.size a ≤ S4x280.size a
  h_S4x280 : 0 < S4x280.numel
  inb_S3x280_S3x280_0_0 : ∀ a, (![0, 0] : Fin 2 → Nat) a + S3x280.size a ≤ S3x280.size a
  h_S3x280 : 0 < S3x280.numel
  slices_S4x140x280_o0_0_0_S1x140x280 : S4x140x280.Slices ![0, 0, 0] S1x140x280
  shapeCasts_S1x140x280_S140x280 : S1x140x280.ShapeCasts S140x280
  slices_S4x2x280x280_o0_0_0_0_S1x1x280x280 : S4x2x280x280.Slices ![0, 0, 0, 0] S1x1x280x280
  shapeCasts_S1x1x280x280_S280x280 : S1x1x280x280.ShapeCasts S280x280
  slices_S4x2x280x280_o0_1_0_0_S1x1x280x280 : S4x2x280x280.Slices ![0, 1, 0, 0] S1x1x280x280
  slices_S4x280_o0_0_S1x280 : S4x280.Slices ![0, 0] S1x280
  shapeCasts_S1x280_S280 : S1x280.ShapeCasts S280
  shapeCasts_S280_S1x280 : S280.ShapeCasts S1x280
  broadcasts_S1x280_S35x280 : S1x280.Broadcasts S35x280
  slices_S3x280_o0_0_S1x280 : S3x280.Slices ![0, 0] S1x280
  slices_S4x140x280_o1_0_0_S1x140x280 : S4x140x280.Slices ![1, 0, 0] S1x140x280
  slices_S4x2x280x280_o1_0_0_0_S1x1x280x280 : S4x2x280x280.Slices ![1, 0, 0, 0] S1x1x280x280
  slices_S4x2x280x280_o1_1_0_0_S1x1x280x280 : S4x2x280x280.Slices ![1, 1, 0, 0] S1x1x280x280
  slices_S4x280_o1_0_S1x280 : S4x280.Slices ![1, 0] S1x280
  slices_S3x280_o1_0_S1x280 : S3x280.Slices ![1, 0] S1x280
  slices_S4x140x280_o2_0_0_S1x140x280 : S4x140x280.Slices ![2, 0, 0] S1x140x280
  slices_S4x2x280x280_o2_0_0_0_S1x1x280x280 : S4x2x280x280.Slices ![2, 0, 0, 0] S1x1x280x280
  slices_S4x2x280x280_o2_1_0_0_S1x1x280x280 : S4x2x280x280.Slices ![2, 1, 0, 0] S1x1x280x280
  slices_S4x280_o2_0_S1x280 : S4x280.Slices ![2, 0] S1x280
  slices_S4x140x280_o3_0_0_S1x140x280 : S4x140x280.Slices ![3, 0, 0] S1x140x280
  slices_S4x2x280x280_o3_0_0_0_S1x1x280x280 : S4x2x280x280.Slices ![3, 0, 0, 0] S1x1x280x280
  slices_S4x2x280x280_o3_1_0_0_S1x1x280x280 : S4x2x280x280.Slices ![3, 1, 0, 0] S1x1x280x280
  slices_S4x280_o3_0_S1x280 : S4x280.Slices ![3, 0] S1x280
  slices_S3x280_o2_0_S1x280 : S3x280.Slices ![2, 0] S1x280
  inb_S280x35_S280x35_0_0 : ∀ a, (![0, 0] : Fin 2 → Nat) a + S280x35.size a ≤ S280x35.size a
  h_S280x35 : 0 < S280x35.numel
  inb_S35_S35_0 : ∀ a, (![0] : Fin 1 → Nat) a + S35.size a ≤ S35.size a
  h_S35 : 0 < S35.numel
  dot_S35x35_S35x140_S35x140_1_0_0_1_n_n_wf : DotDims.WF S35x35 S35x140 S35x140 [1] [0] [0] [1] [] []
  dot_S35x140_S140x140_S35x140_1_0_0_1_n_n_wf : DotDims.WF S35x140 S140x140 S35x140 [1] [0] [0] [1] [] []
  dot_S35x140_S140x280_S35x280_1_0_0_1_n_n_wf : DotDims.WF S35x140 S140x280 S35x280 [1] [0] [0] [1] [] []
  dot_S35x280_S280x280_S35x280_1_0_0_1_n_n_wf : DotDims.WF S35x280 S280x280 S35x280 [1] [0] [0] [1] [] []
  dot_S35x35_S35x280_S35x280_1_0_0_1_n_n_wf : DotDims.WF S35x35 S35x280 S35x280 [1] [0] [0] [1] [] []
  dot_S35x280_S280x35_S35x35_1_0_0_1_n_n_wf : DotDims.WF S35x280 S280x35 S35x35 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S35x35.size a ≤ S35x35.size a
  hwx0_0 : ∀ i : grid0.Coords, EltTy.bits .f32 = 32 ∨ (Rect.block (s := S35x35) S35x35.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x35x140.size a ≤ S4x35x140.size a
  hwx0_1 : ∀ i : grid0.Coords, EltTy.bits .f32 = 32 ∨ (Rect.block (s := S4x35x140) S4x35x140.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x2x140x140.size a ≤ S4x2x140x140.size a
  hwx0_2 : ∀ i : grid0.Coords, EltTy.bits .f32 = 32 ∨ (Rect.block (s := S4x2x140x140) S4x2x140x140.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x140.size a ≤ S4x140.size a
  hwx0_3 : ∀ i : grid0.Coords, EltTy.bits .f32 = 32 ∨ (Rect.block (s := S4x140) S4x140.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x140.size a ≤ S3x140.size a
  hwx0_4 : ∀ i : grid0.Coords, EltTy.bits .f32 = 32 ∨ (Rect.block (s := S3x140) S3x140.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x140.size a ≤ S4x140.size a
  hwx0_5 : ∀ i : grid0.Coords, EltTy.bits .f32 = 32 ∨ (Rect.block (s := S4x140) S4x140.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x140x280.size a ≤ S4x140x280.size a
  hwx0_6 : ∀ i : grid0.Coords, EltTy.bits .f32 = 32 ∨ (Rect.block (s := S4x140x280) S4x140x280.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x2x280x280.size a ≤ S4x2x280x280.size a
  hwx0_7 : ∀ i : grid0.Coords, EltTy.bits .f32 = 32 ∨ (Rect.block (s := S4x2x280x280) S4x2x280x280.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x280.size a ≤ S4x280.size a
  hwx0_8 : ∀ i : grid0.Coords, EltTy.bits .f32 = 32 ∨ (Rect.block (s := S4x280) S4x280.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x280.size a ≤ S3x280.size a
  hwx0_9 : ∀ i : grid0.Coords, EltTy.bits .f32 = 32 ∨ (Rect.block (s := S3x280) S3x280.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x280.size a ≤ S4x280.size a
  hwx0_10 : ∀ i : grid0.Coords, EltTy.bits .f32 = 32 ∨ (Rect.block (s := S4x280) S4x280.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S280x35.size a ≤ S280x35.size a
  hwx0_11 : ∀ i : grid0.Coords, EltTy.bits .f32 = 32 ∨ (Rect.block (s := S280x35) S280x35.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S35.size a ≤ S35.size a
  hwx0_12 : ∀ i : grid0.Coords, EltTy.bits .f32 = 32 ∨ (Rect.block (s := S35) S35.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S35x35.size a ≤ S35x35.size a
  hwx0_13 : ∀ i : grid0.Coords, EltTy.bits .f32 = 32 ∨ (Rect.block (s := S35x35) S35x35.size (cc0_transform_13 i) (hinb0_13 i)).WholeWords (EltTy.packing .f32)

variable [Facts₀]

def dot_S35x35_S35x140_S35x140_1_0_0_1_n_n : DotDims S35x35 S35x140 S35x140 where
  lhsContracting := [1]
  rhsContracting := [0]
  lhsNonContracting := [0]
  rhsNonContracting := [1]
  lhsBatch := []
  rhsBatch := []
  wf := dot_S35x35_S35x140_S35x140_1_0_0_1_n_n_wf
def dot_S35x140_S140x140_S35x140_1_0_0_1_n_n : DotDims S35x140 S140x140 S35x140 where
  lhsContracting := [1]
  rhsContracting := [0]
  lhsNonContracting := [0]
  rhsNonContracting := [1]
  lhsBatch := []
  rhsBatch := []
  wf := dot_S35x140_S140x140_S35x140_1_0_0_1_n_n_wf
def dot_S35x140_S140x280_S35x280_1_0_0_1_n_n : DotDims S35x140 S140x280 S35x280 where
  lhsContracting := [1]
  rhsContracting := [0]
  lhsNonContracting := [0]
  rhsNonContracting := [1]
  lhsBatch := []
  rhsBatch := []
  wf := dot_S35x140_S140x280_S35x280_1_0_0_1_n_n_wf
def dot_S35x280_S280x280_S35x280_1_0_0_1_n_n : DotDims S35x280 S280x280 S35x280 where
  lhsContracting := [1]
  rhsContracting := [0]
  lhsNonContracting := [0]
  rhsNonContracting := [1]
  lhsBatch := []
  rhsBatch := []
  wf := dot_S35x280_S280x280_S35x280_1_0_0_1_n_n_wf
def dot_S35x35_S35x280_S35x280_1_0_0_1_n_n : DotDims S35x35 S35x280 S35x280 where
  lhsContracting := [1]
  rhsContracting := [0]
  lhsNonContracting := [0]
  rhsNonContracting := [1]
  lhsBatch := []
  rhsBatch := []
  wf := dot_S35x35_S35x280_S35x280_1_0_0_1_n_n_wf
def dot_S35x280_S280x35_S35x35_1_0_0_1_n_n : DotDims S35x280 S280x35 S35x35 where
  lhsContracting := [1]
  rhsContracting := [0]
  lhsNonContracting := [0]
  rhsNonContracting := [1]
  lhsBatch := []
  rhsBatch := []
  wf := dot_S35x280_S280x35_S35x35_1_0_0_1_n_n_wf

abbrev win0_0 : Pipeline.Window sig grid0 :=
  Pipeline.Window.ofSpec (Memref.whole main_arg0) S35x35.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x35x140.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x2x140x140.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x140.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x140.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x140.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x140x280.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x2x280x280.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x280.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S3x280.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S4x280.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S280x35.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S35.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v0) S35x35.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S35x35 : Shape := ⟨2, ![35, 35]⟩
abbrev S4x35x140 : Shape := ⟨3, ![4, 35, 140]⟩
abbrev S4x2x140x140 : Shape := ⟨4, ![4, 2, 140, 140]⟩
abbrev S4x140 : Shape := ⟨2, ![4, 140]⟩
abbrev S3x140 : Shape := ⟨2, ![3, 140]⟩
abbrev S4x140x280 : Shape := ⟨3, ![4, 140, 280]⟩
abbrev S4x2x280x280 : Shape := ⟨4, ![4, 2, 280, 280]⟩
abbrev S4x280 : Shape := ⟨2, ![4, 280]⟩
abbrev S3x280 : Shape := ⟨2, ![3, 280]⟩
abbrev S280x35 : Shape := ⟨2, ![280, 35]⟩
abbrev S35 : Shape := ⟨1, ![35]⟩
abbrev S_ : Shape := ⟨0, ![]⟩
abbrev S35x1 : Shape := ⟨2, ![35, 1]⟩
abbrev S1x35 : Shape := ⟨2, ![1, 35]⟩
abbrev S35x140 : Shape := ⟨2, ![35, 140]⟩
abbrev S1x35x140 : Shape := ⟨3, ![1, 35, 140]⟩
abbrev S1x1x140x140 : Shape := ⟨4, ![1, 1, 140, 140]⟩
abbrev S140x140 : Shape := ⟨2, ![140, 140]⟩
abbrev S1x140 : Shape := ⟨2, ![1, 140]⟩
abbrev S140 : Shape := ⟨1, ![140]⟩
abbrev S35x280 : Shape := ⟨2, ![35, 280]⟩
abbrev S1x140x280 : Shape := ⟨3, ![1, 140, 280]⟩
abbrev S140x280 : Shape := ⟨2, ![140, 280]⟩
abbrev S1x1x280x280 : Shape := ⟨4, ![1, 1, 280, 280]⟩
abbrev S280x280 : Shape := ⟨2, ![280, 280]⟩
abbrev S1x280 : Shape := ⟨2, ![1, 280]⟩
abbrev S280 : Shape := ⟨1, ![280]⟩

abbrev nBuf : Space → Nat
  | .hbm => 340
  | .vmem => 0
  | .smem => 0
  | _ => 0

abbrev hbmTy0_0 (i : Nat) : BufTy := match i % 128 with
  | 0 => ⟨S35x35, .f32⟩
  | 1 => ⟨S4x35x140, .f32⟩
  | 2 => ⟨S4x2x140x140, .f32⟩
  | 3 => ⟨S4x140, .f32⟩
  | 4 => ⟨S3x140, .f32⟩
  | 5 => ⟨S4x140, .f32⟩
  | 6 => ⟨S4x140x280, .f32⟩
  | 7 => ⟨S4x2x280x280, .f32⟩
  | 8 => ⟨S4x280, .f32⟩
  | 9 => ⟨S3x280, .f32⟩
  | 10 => ⟨S4x280, .f32⟩
  | 11 => ⟨S280x35, .f32⟩
  | 12 => ⟨S35, .f32⟩
  | 13 => ⟨S35x35, .i32⟩
  | 14 => ⟨S35x35, .i32⟩
  | 15 => ⟨S_, .i32⟩
  | 16 => ⟨S35x35, .i32⟩
  | 17 => ⟨S35x35, .i32⟩
  | 18 => ⟨S35x35, .i1⟩
  | 19 => ⟨S35x35, .f32⟩
  | 20 => ⟨S_, .f32⟩
  | 21 => ⟨S35x35, .f32⟩
  | 22 => ⟨S35x35, .f32⟩
  | 23 => ⟨S35x35, .f32⟩
  | 24 => ⟨S_, .f32⟩
  | 25 => ⟨S35, .f32⟩
  | 26 => ⟨S_, .f32⟩
  | 27 => ⟨S35, .f32⟩
  | 28 => ⟨S35, .i1⟩
  | 29 => ⟨S_, .f32⟩
  | 30 => ⟨S35, .f32⟩
  | 31 => ⟨S35, .f32⟩
  | 32 => ⟨S35, .f32⟩
  | 33 => ⟨S_, .f32⟩
  | 34 => ⟨S35, .f32⟩
  | 35 => ⟨S35, .f32⟩
  | 36 => ⟨S_, .f32⟩
  | 37 => ⟨S_, .f32⟩
  | 38 => ⟨S35, .f32⟩
  | 39 => ⟨S35, .f32⟩
  | 40 => ⟨S35x1, .f32⟩
  | 41 => ⟨S35x35, .f32⟩
  | 42 => ⟨S35x35, .f32⟩
  | 43 => ⟨S1x35, .f32⟩
  | 44 => ⟨S35x35, .f32⟩
  | 45 => ⟨S35x35, .f32⟩
  | 46 => ⟨S35x35, .f32⟩
  | 47 => ⟨S_, .f32⟩
  | 48 => ⟨S35x140, .f32⟩
  | 49 => ⟨S_, .f32⟩
  | 50 => ⟨S35x140, .f32⟩
  | 51 => ⟨S1x35x140, .f32⟩
  | 52 => ⟨S35x140, .f32⟩
  | 53 => ⟨S35x140, .f32⟩
  | 54 => ⟨S1x1x140x140, .f32⟩
  | 55 => ⟨S140x140, .f32⟩
  | 56 => ⟨S35x140, .f32⟩
  | 57 => ⟨S35x140, .f32⟩
  | 58 => ⟨S1x1x140x140, .f32⟩
  | 59 => ⟨S140x140, .f32⟩
  | 60 => ⟨S35x140, .f32⟩
  | 61 => ⟨S35x140, .f32⟩
  | 62 => ⟨S1x140, .f32⟩
  | 63 => ⟨S140, .f32⟩
  | 64 => ⟨S1x140, .f32⟩
  | 65 => ⟨S35x140, .f32⟩
  | 66 => ⟨S35x140, .f32⟩
  | 67 => ⟨S35x140, .f32⟩
  | 68 => ⟨S1x140, .f32⟩
  | 69 => ⟨S140, .f32⟩
  | 70 => ⟨S1x140, .f32⟩
  | 71 => ⟨S35x140, .f32⟩
  | 72 => ⟨S35x140, .f32⟩
  | 73 => ⟨S35x140, .f32⟩
  | 74 => ⟨S1x140, .f32⟩
  | 75 => ⟨S140, .f32⟩
  | 76 => ⟨S1x140, .f32⟩
  | 77 => ⟨S35x140, .f32⟩
  | 78 => ⟨S35x140, .f32⟩
  | 79 => ⟨S35x140, .f32⟩
  | 80 => ⟨S35x140, .f32⟩
  | 81 => ⟨S_, .f32⟩
  | 82 => ⟨S35x140, .f32⟩
  | 83 => ⟨S35x140, .f32⟩
  | 84 => ⟨S_, .f32⟩
  | 85 => ⟨S35x140, .f32⟩
  | 86 => ⟨S35x140, .f32⟩
  | 87 => ⟨S1x35x140, .f32⟩
  | 88 => ⟨S35x140, .f32⟩
  | 89 => ⟨S35x140, .f32⟩
  | 90 => ⟨S1x1x140x140, .f32⟩
  | 91 => ⟨S140x140, .f32⟩
  | 92 => ⟨S35x140, .f32⟩
  | 93 => ⟨S35x140, .f32⟩
  | 94 => ⟨S1x1x140x140, .f32⟩
  | 95 => ⟨S140x140, .f32⟩
  | 96 => ⟨S35x140, .f32⟩
  | 97 => ⟨S35x140, .f32⟩
  | 98 => ⟨S1x140, .f32⟩
  | 99 => ⟨S140, .f32⟩
  | 100 => ⟨S1x140, .f32⟩
  | 101 => ⟨S35x140, .f32⟩
  | 102 => ⟨S35x140, .f32⟩
  | 103 => ⟨S35x140, .f32⟩
  | 104 => ⟨S1x140, .f32⟩
  | 105 => ⟨S140, .f32⟩
  | 106 => ⟨S1x140, .f32⟩
  | 107 => ⟨S35x140, .f32⟩
  | 108 => ⟨S35x140, .f32⟩
  | 109 => ⟨S35x140, .f32⟩
  | 110 => ⟨S1x140, .f32⟩
  | 111 => ⟨S140, .f32⟩
  | 112 => ⟨S1x140, .f32⟩
  | 113 => ⟨S35x140, .f32⟩
  | 114 => ⟨S35x140, .f32⟩
  | 115 => ⟨S35x140, .f32⟩
  | 116 => ⟨S35x140, .f32⟩
  | 117 => ⟨S_, .f32⟩
  | 118 => ⟨S35x140, .f32⟩
  | 119 => ⟨S35x140, .f32⟩
  | 120 => ⟨S_, .f32⟩
  | 121 => ⟨S35x140, .f32⟩
  | 122 => ⟨S35x140, .f32⟩
  | 123 => ⟨S1x35x140, .f32⟩
  | 124 => ⟨S35x140, .f32⟩
  | 125 => ⟨S35x140, .f32⟩
  | 126 => ⟨S1x1x140x140, .f32⟩
  | 127 => ⟨S140x140, .f32⟩
  | _ => ⟨S35x35, .f32⟩

abbrev hbmTy0_1 (i : Nat) : BufTy := match i % 128 with
  | 0 => ⟨S35x140, .f32⟩
  | 1 => ⟨S35x140, .f32⟩
  | 2 => ⟨S1x1x140x140, .f32⟩
  | 3 => ⟨S140x140, .f32⟩
  | 4 => ⟨S35x140, .f32⟩
  | 5 => ⟨S35x140, .f32⟩
  | 6 => ⟨S1x140, .f32⟩
  | 7 => ⟨S140, .f32⟩
  | 8 => ⟨S1x140, .f32⟩
  | 9 => ⟨S35x140, .f32⟩
  | 10 => ⟨S35x140, .f32⟩
  | 11 => ⟨S35x140, .f32⟩
  | 12 => ⟨S1x140, .f32⟩
  | 13 => ⟨S140, .f32⟩
  | 14 => ⟨S1x140, .f32⟩
  | 15 => ⟨S35x140, .f32⟩
  | 16 => ⟨S35x140, .f32⟩
  | 17 => ⟨S35x140, .f32⟩
  | 18 => ⟨S35x140, .f32⟩
  | 19 => ⟨S35x140, .f32⟩
  | 20 => ⟨S35x140, .f32⟩
  | 21 => ⟨S1x35x140, .f32⟩
  | 22 => ⟨S35x140, .f32⟩
  | 23 => ⟨S35x140, .f32⟩
  | 24 => ⟨S1x1x140x140, .f32⟩
  | 25 => ⟨S140x140, .f32⟩
  | 26 => ⟨S35x140, .f32⟩
  | 27 => ⟨S35x140, .f32⟩
  | 28 => ⟨S1x1x140x140, .f32⟩
  | 29 => ⟨S140x140, .f32⟩
  | 30 => ⟨S35x140, .f32⟩
  | 31 => ⟨S35x140, .f32⟩
  | 32 => ⟨S1x140, .f32⟩
  | 33 => ⟨S140, .f32⟩
  | 34 => ⟨S1x140, .f32⟩
  | 35 => ⟨S35x140, .f32⟩
  | 36 => ⟨S35x140, .f32⟩
  | 37 => ⟨S35x140, .f32⟩
  | 38 => ⟨S1x140, .f32⟩
  | 39 => ⟨S140, .f32⟩
  | 40 => ⟨S1x140, .f32⟩
  | 41 => ⟨S35x140, .f32⟩
  | 42 => ⟨S35x140, .f32⟩
  | 43 => ⟨S35x140, .f32⟩
  | 44 => ⟨S1x140, .f32⟩
  | 45 => ⟨S140, .f32⟩
  | 46 => ⟨S1x140, .f32⟩
  | 47 => ⟨S35x140, .f32⟩
  | 48 => ⟨S35x140, .f32⟩
  | 49 => ⟨S35x140, .f32⟩
  | 50 => ⟨S35x140, .f32⟩
  | 51 => ⟨S_, .f32⟩
  | 52 => ⟨S35x140, .f32⟩
  | 53 => ⟨S35x140, .f32⟩
  | 54 => ⟨S_, .f32⟩
  | 55 => ⟨S35x140, .f32⟩
  | 56 => ⟨S35x140, .f32⟩
  | 57 => ⟨S35x140, .f32⟩
  | 58 => ⟨S35x140, .f32⟩
  | 59 => ⟨S_, .f32⟩
  | 60 => ⟨S35x140, .f32⟩
  | 61 => ⟨S35x140, .f32⟩
  | 62 => ⟨S_, .f32⟩
  | 63 => ⟨S35x280, .f32⟩
  | 64 => ⟨S_, .f32⟩
  | 65 => ⟨S35x280, .f32⟩
  | 66 => ⟨S1x140x280, .f32⟩
  | 67 => ⟨S140x280, .f32⟩
  | 68 => ⟨S35x280, .f32⟩
  | 69 => ⟨S1x1x280x280, .f32⟩
  | 70 => ⟨S280x280, .f32⟩
  | 71 => ⟨S35x280, .f32⟩
  | 72 => ⟨S35x280, .f32⟩
  | 73 => ⟨S1x1x280x280, .f32⟩
  | 74 => ⟨S280x280, .f32⟩
  | 75 => ⟨S35x280, .f32⟩
  | 76 => ⟨S35x280, .f32⟩
  | 77 => ⟨S1x280, .f32⟩
  | 78 => ⟨S280, .f32⟩
  | 79 => ⟨S1x280, .f32⟩
  | 80 => ⟨S35x280, .f32⟩
  | 81 => ⟨S35x280, .f32⟩
  | 82 => ⟨S35x280, .f32⟩
  | 83 => ⟨S1x280, .f32⟩
  | 84 => ⟨S280, .f32⟩
  | 85 => ⟨S1x280, .f32⟩
  | 86 => ⟨S35x280, .f32⟩
  | 87 => ⟨S35x280, .f32⟩
  | 88 => ⟨S35x280, .f32⟩
  | 89 => ⟨S1x280, .f32⟩
  | 90 => ⟨S280, .f32⟩
  | 91 => ⟨S1x280, .f32⟩
  | 92 => ⟨S35x280, .f32⟩
  | 93 => ⟨S35x280, .f32⟩
  | 94 => ⟨S35x280, .f32⟩
  | 95 => ⟨S35x280, .f32⟩
  | 96 => ⟨S_, .f32⟩
  | 97 => ⟨S35x280, .f32⟩
  | 98 => ⟨S35x280, .f32⟩
  | 99 => ⟨S_, .f32⟩
  | 100 => ⟨S35x280, .f32⟩
  | 101 => ⟨S35x280, .f32⟩
  | 102 => ⟨S1x140x280, .f32⟩
  | 103 => ⟨S140x280, .f32⟩
  | 104 => ⟨S35x280, .f32⟩
  | 105 => ⟨S1x1x280x280, .f32⟩
  | 106 => ⟨S280x280, .f32⟩
  | 107 => ⟨S35x280, .f32⟩
  | 108 => ⟨S35x280, .f32⟩
  | 109 => ⟨S1x1x280x280, .f32⟩
  | 110 => ⟨S280x280, .f32⟩
  | 111 => ⟨S35x280, .f32⟩
  | 112 => ⟨S35x280, .f32⟩
  | 113 => ⟨S1x280, .f32⟩
  | 114 => ⟨S280, .f32⟩
  | 115 => ⟨S1x280, .f32⟩
  | 116 => ⟨S35x280, .f32⟩
  | 117 => ⟨S35x280, .f32⟩
  | 118 => ⟨S35x280, .f32⟩
  | 119 => ⟨S1x280, .f32⟩
  | 120 => ⟨S280, .f32⟩
  | 121 => ⟨S1x280, .f32⟩
  | 122 => ⟨S35x280, .f32⟩
  | 123 => ⟨S35x280, .f32⟩
  | 124 => ⟨S35x280, .f32⟩
  | 125 => ⟨S1x280, .f32⟩
  | 126 => ⟨S280, .f32⟩
  | 127 => ⟨S1x280, .f32⟩
  | _ => ⟨S35x35, .f32⟩

abbrev hbmTy0_2 (i : Nat) : BufTy := match i % 128 with
  | 0 => ⟨S35x280, .f32⟩
  | 1 => ⟨S35x280, .f32⟩
  | 2 => ⟨S35x280, .f32⟩
  | 3 => ⟨S35x280, .f32⟩
  | 4 => ⟨S_, .f32⟩
  | 5 => ⟨S35x280, .f32⟩
  | 6 => ⟨S35x280, .f32⟩
  | 7 => ⟨S_, .f32⟩
  | 8 => ⟨S35x280, .f32⟩
  | 9 => ⟨S35x280, .f32⟩
  | 10 => ⟨S1x140x280, .f32⟩
  | 11 => ⟨S140x280, .f32⟩
  | 12 => ⟨S35x280, .f32⟩
  | 13 => ⟨S1x1x280x280, .f32⟩
  | 14 => ⟨S280x280, .f32⟩
  | 15 => ⟨S35x280, .f32⟩
  | 16 => ⟨S35x280, .f32⟩
  | 17 => ⟨S1x1x280x280, .f32⟩
  | 18 => ⟨S280x280, .f32⟩
  | 19 => ⟨S35x280, .f32⟩
  | 20 => ⟨S35x280, .f32⟩
  | 21 => ⟨S1x280, .f32⟩
  | 22 => ⟨S280, .f32⟩
  | 23 => ⟨S1x280, .f32⟩
  | 24 => ⟨S35x280, .f32⟩
  | 25 => ⟨S35x280, .f32⟩
  | 26 => ⟨S35x280, .f32⟩
  | 27 => ⟨S1x280, .f32⟩
  | 28 => ⟨S280, .f32⟩
  | 29 => ⟨S1x280, .f32⟩
  | 30 => ⟨S35x280, .f32⟩
  | 31 => ⟨S35x280, .f32⟩
  | 32 => ⟨S35x280, .f32⟩
  | 33 => ⟨S35x280, .f32⟩
  | 34 => ⟨S35x280, .f32⟩
  | 35 => ⟨S35x280, .f32⟩
  | 36 => ⟨S1x140x280, .f32⟩
  | 37 => ⟨S140x280, .f32⟩
  | 38 => ⟨S35x280, .f32⟩
  | 39 => ⟨S1x1x280x280, .f32⟩
  | 40 => ⟨S280x280, .f32⟩
  | 41 => ⟨S35x280, .f32⟩
  | 42 => ⟨S35x280, .f32⟩
  | 43 => ⟨S1x1x280x280, .f32⟩
  | 44 => ⟨S280x280, .f32⟩
  | 45 => ⟨S35x280, .f32⟩
  | 46 => ⟨S35x280, .f32⟩
  | 47 => ⟨S1x280, .f32⟩
  | 48 => ⟨S280, .f32⟩
  | 49 => ⟨S1x280, .f32⟩
  | 50 => ⟨S35x280, .f32⟩
  | 51 => ⟨S35x280, .f32⟩
  | 52 => ⟨S35x280, .f32⟩
  | 53 => ⟨S1x280, .f32⟩
  | 54 => ⟨S280, .f32⟩
  | 55 => ⟨S1x280, .f32⟩
  | 56 => ⟨S35x280, .f32⟩
  | 57 => ⟨S35x280, .f32⟩
  | 58 => ⟨S35x280, .f32⟩
  | 59 => ⟨S1x280, .f32⟩
  | 60 => ⟨S280, .f32⟩
  | 61 => ⟨S1x280, .f32⟩
  | 62 => ⟨S35x280, .f32⟩
  | 63 => ⟨S35x280, .f32⟩
  | 64 => ⟨S35x280, .f32⟩
  | 65 => ⟨S35x280, .f32⟩
  | 66 => ⟨S_, .f32⟩
  | 67 => ⟨S35x280, .f32⟩
  | 68 => ⟨S35x280, .f32⟩
  | 69 => ⟨S_, .f32⟩
  | 70 => ⟨S35x280, .f32⟩
  | 71 => ⟨S35x280, .f32⟩
  | 72 => ⟨S35x280, .f32⟩
  | 73 => ⟨S35x280, .f32⟩
  | 74 => ⟨S_, .f32⟩
  | 75 => ⟨S35x280, .f32⟩
  | 76 => ⟨S35x280, .f32⟩
  | 77 => ⟨S35x35, .f32⟩
  | 78 => ⟨S1x35, .f32⟩
  | 79 => ⟨S35x35, .f32⟩
  | 80 => ⟨S35x35, .f32⟩
  | 81 => ⟨S_, .f32⟩
  | 82 => ⟨S35x35, .f32⟩
  | 83 => ⟨S35x35, .f32⟩
  | _ => ⟨S35x35, .f32⟩

abbrev hbmTy (i : Nat) : BufTy := match i / 128 with
  | 0 => hbmTy0_0 i
  | 1 => hbmTy0_1 i
  | 2 => hbmTy0_2 i
  | _ => ⟨S35x35, .f32⟩

abbrev bufTy : (tb : Table) → Fin (tcTables nBuf tb) → BufTy
  | .hbm, ⟨i, _⟩ => hbmTy i
  | _, _ => ⟨S35x35, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_cst_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_7 : Ref sig .tc := ⟨.hbm, 81, rfl⟩
abbrev main_v57 : Ref sig .tc := ⟨.hbm, 82, rfl⟩
abbrev main_v58 : Ref sig .tc := ⟨.hbm, 83, rfl⟩
abbrev main_cst_8 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_9 : Ref sig .tc := ⟨.hbm, 117, rfl⟩
abbrev main_v91 : Ref sig .tc := ⟨.hbm, 118, rfl⟩
abbrev main_v92 : Ref sig .tc := ⟨.hbm, 119, rfl⟩
abbrev main_cst_10 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_cst_11 : Ref sig .tc := ⟨.hbm, 179, rfl⟩
abbrev main_v151 : Ref sig .tc := ⟨.hbm, 180, rfl⟩
abbrev main_v152 : Ref sig .tc := ⟨.hbm, 181, rfl⟩
abbrev main_cst_12 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_call1_cst : Ref sig .tc := ⟨.hbm, 187, rfl⟩
abbrev main_call1_v0 : Ref sig .tc := ⟨.hbm, 188, rfl⟩
abbrev main_v157 : Ref sig .tc := ⟨.hbm, 189, rfl⟩
abbrev main_cst_13 : Ref sig .tc := ⟨.hbm, 190, rfl⟩
abbrev main_v158 : Ref sig .tc := ⟨.hbm, 191, rfl⟩
abbrev main_cst_14 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_cst_15 : Ref sig .tc := ⟨.hbm, 224, rfl⟩
abbrev main_v190 : Ref sig .tc := ⟨.hbm, 225, rfl⟩
abbrev main_v191 : Ref sig .tc := ⟨.hbm, 226, rfl⟩
abbrev main_cst_16 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_cst_17 : Ref sig .tc := ⟨.hbm, 260, rfl⟩
abbrev main_v224 : Ref sig .tc := ⟨.hbm, 261, rfl⟩
abbrev main_v225 : Ref sig .tc := ⟨.hbm, 262, rfl⟩
abbrev main_cst_18 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_v235 : Ref sig .tc := ⟨.hbm, 273, rfl⟩
abbrev main_v236 : Ref sig .tc := ⟨.hbm, 274, rfl⟩
abbrev main_v237 : Ref sig .tc := ⟨.hbm, 275, rfl⟩
abbrev main_v238 : Ref sig .tc := ⟨.hbm, 276, rfl⟩
abbrev main_v239 : Ref sig .tc := ⟨.hbm, 277, rfl⟩
abbrev main_v240 : Ref sig .tc := ⟨.hbm, 278, rfl⟩
abbrev main_v241 : Ref sig .tc := ⟨.hbm, 279, rfl⟩
abbrev main_v242 : Ref sig .tc := ⟨.hbm, 280, rfl⟩
abbrev main_v243 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_v248 : Ref sig .tc := ⟨.hbm, 286, rfl⟩
abbrev main_v249 : Ref sig .tc := ⟨.hbm, 287, rfl⟩
abbrev main_v250 : Ref sig .tc := ⟨.hbm, 288, rfl⟩
abbrev main_v251 : Ref sig .tc := ⟨.hbm, 289, rfl⟩
abbrev main_v252 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_v258 : Ref sig .tc := ⟨.hbm, 296, rfl⟩
abbrev main_v259 : Ref sig .tc := ⟨.hbm, 297, rfl⟩
abbrev main_v260 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_v264 : Ref sig .tc := ⟨.hbm, 302, rfl⟩
abbrev main_v265 : Ref sig .tc := ⟨.hbm, 303, rfl⟩
abbrev main_v266 : Ref sig .tc := ⟨.hbm, 304, rfl⟩
abbrev main_v267 : Ref sig .tc := ⟨.hbm, 305, rfl⟩
abbrev main_v268 : Ref sig .tc := ⟨.hbm, 306, rfl⟩
abbrev main_v269 : Ref sig .tc := ⟨.hbm, 307, rfl⟩
abbrev main_v270 : Ref sig .tc := ⟨.hbm, 308, rfl⟩
abbrev main_v271 : Ref sig .tc := ⟨.hbm, 309, rfl⟩
abbrev main_v272 : Ref sig .tc := ⟨.hbm, 310, rfl⟩
abbrev main_v273 : Ref sig .tc := ⟨.hbm, 311, rfl⟩
abbrev main_v274 : Ref sig .tc := ⟨.hbm, 312, rfl⟩
abbrev main_v275 : Ref sig .tc := ⟨.hbm, 313, rfl⟩
abbrev main_v276 : Ref sig .tc := ⟨.hbm, 314, rfl⟩
abbrev main_v277 : Ref sig .tc := ⟨.hbm, 315, rfl⟩
abbrev main_v278 : Ref sig .tc := ⟨.hbm, 316, rfl⟩
abbrev main_v279 : Ref sig .tc := ⟨.hbm, 317, rfl⟩
abbrev main_v280 : Ref sig .tc := ⟨.hbm, 318, rfl⟩
abbrev main_v281 : Ref sig .tc := ⟨.hbm, 319, rfl⟩
abbrev main_v282 : Ref sig .tc := ⟨.hbm, 320, rfl⟩
abbrev main_v283 : Ref sig .tc := ⟨.hbm, 321, rfl⟩
abbrev main_cst_19 : Ref sig .tc := ⟨.hbm, 322, rfl⟩
abbrev main_v284 : Ref sig .tc := ⟨.hbm, 323, rfl⟩
abbrev main_v285 : Ref sig .tc := ⟨.hbm, 324, rfl⟩
abbrev main_cst_20 : Ref sig .tc := ⟨.hbm, 325, rfl⟩
abbrev main_v286 : Ref sig .tc := ⟨.hbm, 326, rfl⟩
abbrev main_v287 : Ref sig .tc := ⟨.hbm, 327, rfl⟩
abbrev main_v288 : Ref sig .tc := ⟨.hbm, 328, rfl⟩
abbrev main_v289 : Ref sig .tc := ⟨.hbm, 329, rfl⟩
abbrev main_call2_cst : Ref sig .tc := ⟨.hbm, 330, rfl⟩
abbrev main_call2_v0 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_v293 : Ref sig .tc := ⟨.hbm, 335, rfl⟩
abbrev main_v294 : Ref sig .tc := ⟨.hbm, 336, rfl⟩
abbrev main_call3_cst : Ref sig .tc := ⟨.hbm, 337, rfl⟩
abbrev main_call3_v0 : Ref sig .tc := ⟨.hbm, 338, rfl⟩
abbrev main_v295 : Ref sig .tc := ⟨.hbm, 339, rfl⟩

abbrev nD : Nat := 1
abbrev τ : Topo := Topo.v7x

variable {F : FTy → Type} [FloatOps F]

class Facts₀ : Prop where
  bcast_S_S35x35 : S_.BroadcastsInDim S35x35 (![] : Fin 0 → Fin S35x35.rank)
  reducesTo_S35x35_S35_d1 : S35x35.ReducesTo [1] S35
  h_S_ : 0 < S_.numel
  bcast_S_S35 : S_.BroadcastsInDim S35 (![] : Fin 0 → Fin S35.rank)
  bcast_S35_S35x1_0 : S35.BroadcastsInDim S35x1 (![0] : Fin 1 → Fin S35x1.rank)
  bcast_S35x1_S35x35_0_1 : S35x1.BroadcastsInDim S35x35 (![0, 1] : Fin 2 → Fin S35x35.rank)
  bcast_S35_S1x35_1 : S35.BroadcastsInDim S1x35 (![1] : Fin 1 → Fin S1x35.rank)
  bcast_S1x35_S35x35_0_1 : S1x35.BroadcastsInDim S35x35 (![0, 1] : Fin 2 → Fin S35x35.rank)
  bcast_S_S35x140 : S_.BroadcastsInDim S35x140 (![] : Fin 0 → Fin S35x140.rank)
  slices_S4x35x140_S1x35x140_0_0_0 : S4x35x140.Slices ![0, 0, 0] S1x35x140
  shapeCasts_S1x35x140_S35x140 : S1x35x140.ShapeCasts S35x140
  slices_S4x2x140x140_S1x1x140x140_0_0_0_0 : S4x2x140x140.Slices ![0, 0, 0, 0] S1x1x140x140
  shapeCasts_S1x1x140x140_S140x140 : S1x1x140x140.ShapeCasts S140x140
  slices_S4x2x140x140_S1x1x140x140_0_1_0_0 : S4x2x140x140.Slices ![0, 1, 0, 0] S1x1x140x140
  slices_S4x140_S1x140_0_0 : S4x140.Slices ![0, 0] S1x140
  shapeCasts_S1x140_S140 : S1x140.ShapeCasts S140
  bcast_S140_S1x140_1 : S140.BroadcastsInDim S1x140 (![1] : Fin 1 → Fin S1x140.rank)
  bcast_S1x140_S35x140_0_1 : S1x140.BroadcastsInDim S35x140 (![0, 1] : Fin 2 → Fin S35x140.rank)
  slices_S3x140_S1x140_0_0 : S3x140.Slices ![0, 0] S1x140
  slices_S4x35x140_S1x35x140_1_0_0 : S4x35x140.Slices ![1, 0, 0] S1x35x140
  slices_S4x2x140x140_S1x1x140x140_1_0_0_0 : S4x2x140x140.Slices ![1, 0, 0, 0] S1x1x140x140
  slices_S4x2x140x140_S1x1x140x140_1_1_0_0 : S4x2x140x140.Slices ![1, 1, 0, 0] S1x1x140x140
  slices_S4x140_S1x140_1_0 : S4x140.Slices ![1, 0] S1x140
  slices_S3x140_S1x140_1_0 : S3x140.Slices ![1, 0] S1x140
  slices_S4x35x140_S1x35x140_2_0_0 : S4x35x140.Slices ![2, 0, 0] S1x35x140
  slices_S4x2x140x140_S1x1x140x140_2_0_0_0 : S4x2x140x140.Slices ![2, 0, 0, 0] S1x1x140x140
  slices_S4x2x140x140_S1x1x140x140_2_1_0_0 : S4x2x140x140.Slices ![2, 1, 0, 0] S1x1x140x140
  slices_S4x140_S1x140_2_0 : S4x140.Slices ![2, 0] S1x140
  slices_S4x35x140_S1x35x140_3_0_0 : S4x35x140.Slices ![3, 0, 0] S1x35x140
  slices_S4x2x140x140_S1x1x140x140_3_0_0_0 : S4x2x140x140.Slices ![3, 0, 0, 0] S1x1x140x140
  slices_S4x2x140x140_S1x1x140x140_3_1_0_0 : S4x2x140x140.Slices ![3, 1, 0, 0] S1x1x140x140
  slices_S4x140_S1x140_3_0 : S4x140.Slices ![3, 0] S1x140
  slices_S3x140_S1x140_2_0 : S3x140.Slices ![2, 0] S1x140
  bcast_S_S35x280 : S_.BroadcastsInDim S35x280 (![] : Fin 0 → Fin S35x280.rank)
  slices_S4x140x280_S1x140x280_0_0_0 : S4x140x280.Slices ![0, 0, 0] S1x140x280
  shapeCasts_S1x140x280_S140x280 : S1x140x280.ShapeCasts S140x280
  slices_S4x2x280x280_S1x1x280x280_0_0_0_0 : S4x2x280x280.Slices ![0, 0, 0, 0] S1x1x280x280
  shapeCasts_S1x1x280x280_S280x280 : S1x1x280x280.ShapeCasts S280x280
  slices_S4x2x280x280_S1x1x280x280_0_1_0_0 : S4x2x280x280.Slices ![0, 1, 0, 0] S1x1x280x280
  slices_S4x280_S1x280_0_0 : S4x280.Slices ![0, 0] S1x280
  shapeCasts_S1x280_S280 : S1x280.ShapeCasts S280
  bcast_S280_S1x280_1 : S280.BroadcastsInDim S1x280 (![1] : Fin 1 → Fin S1x280.rank)
  bcast_S1x280_S35x280_0_1 : S1x280.BroadcastsInDim S35x280 (![0, 1] : Fin 2 → Fin S35x280.rank)
  slices_S3x280_S1x280_0_0 : S3x280.Slices ![0, 0] S1x280
  slices_S4x140x280_S1x140x280_1_0_0 : S4x140x280.Slices ![1, 0, 0] S1x140x280
  slices_S4x2x280x280_S1x1x280x280_1_0_0_0 : S4x2x280x280.Slices ![1, 0, 0, 0] S1x1x280x280
  slices_S4x2x280x280_S1x1x280x280_1_1_0_0 : S4x2x280x280.Slices ![1, 1, 0, 0] S1x1x280x280
  slices_S4x280_S1x280_1_0 : S4x280.Slices ![1, 0] S1x280
  slices_S3x280_S1x280_1_0 : S3x280.Slices ![1, 0] S1x280
  slices_S4x140x280_S1x140x280_2_0_0 : S4x140x280.Slices ![2, 0, 0] S1x140x280
  slices_S4x2x280x280_S1x1x280x280_2_0_0_0 : S4x2x280x280.Slices ![2, 0, 0, 0] S1x1x280x280
  slices_S4x2x280x280_S1x1x280x280_2_1_0_0 : S4x2x280x280.Slices ![2, 1, 0, 0] S1x1x280x280
  slices_S4x280_S1x280_2_0 : S4x280.Slices ![2, 0] S1x280
  slices_S4x140x280_S1x140x280_3_0_0 : S4x140x280.Slices ![3, 0, 0] S1x140x280
  slices_S4x2x280x280_S1x1x280x280_3_0_0_0 : S4x2x280x280.Slices ![3, 0, 0, 0] S1x1x280x280
  slices_S4x2x280x280_S1x1x280x280_3_1_0_0 : S4x2x280x280.Slices ![3, 1, 0, 0] S1x1x280x280
  slices_S4x280_S1x280_3_0 : S4x280.Slices ![3, 0] S1x280
  slices_S3x280_S1x280_2_0 : S3x280.Slices ![2, 0] S1x280
  dot_S35x35_S35x140_S35x140_1_0_0_1_n_n_wf : DotDims.WF S35x35 S35x140 S35x140 [1] [0] [0] [1] [] []
  dot_S35x140_S140x140_S35x140_1_0_0_1_n_n_wf : DotDims.WF S35x140 S140x140 S35x140 [1] [0] [0] [1] [] []
  dot_S35x140_S140x280_S35x280_1_0_0_1_n_n_wf : DotDims.WF S35x140 S140x280 S35x280 [1] [0] [0] [1] [] []
  dot_S35x280_S280x280_S35x280_1_0_0_1_n_n_wf : DotDims.WF S35x280 S280x280 S35x280 [1] [0] [0] [1] [] []
  dot_S35x35_S35x280_S35x280_1_0_0_1_n_n_wf : DotDims.WF S35x35 S35x280 S35x280 [1] [0] [0] [1] [] []
  dot_S35x280_S280x35_S35x35_1_0_0_1_n_n_wf : DotDims.WF S35x280 S280x35 S35x35 [1] [0] [0] [1] [] []

variable [Facts₀]

def dot_S35x35_S35x140_S35x140_1_0_0_1_n_n : DotDims S35x35 S35x140 S35x140 where
  lhsContracting := [1]
  rhsContracting := [0]
  lhsNonContracting := [0]
  rhsNonContracting := [1]
  lhsBatch := []
  rhsBatch := []
  wf := dot_S35x35_S35x140_S35x140_1_0_0_1_n_n_wf
def dot_S35x140_S140x140_S35x140_1_0_0_1_n_n : DotDims S35x140 S140x140 S35x140 where
  lhsContracting := [1]
  rhsContracting := [0]
  lhsNonContracting := [0]
  rhsNonContracting := [1]
  lhsBatch := []
  rhsBatch := []
  wf := dot_S35x140_S140x140_S35x140_1_0_0_1_n_n_wf
def dot_S35x140_S140x280_S35x280_1_0_0_1_n_n : DotDims S35x140 S140x280 S35x280 where
  lhsContracting := [1]
  rhsContracting := [0]
  lhsNonContracting := [0]
  rhsNonContracting := [1]
  lhsBatch := []
  rhsBatch := []
  wf := dot_S35x140_S140x280_S35x280_1_0_0_1_n_n_wf
def dot_S35x280_S280x280_S35x280_1_0_0_1_n_n : DotDims S35x280 S280x280 S35x280 where
  lhsContracting := [1]
  rhsContracting := [0]
  lhsNonContracting := [0]
  rhsNonContracting := [1]
  lhsBatch := []
  rhsBatch := []
  wf := dot_S35x280_S280x280_S35x280_1_0_0_1_n_n_wf
def dot_S35x35_S35x280_S35x280_1_0_0_1_n_n : DotDims S35x35 S35x280 S35x280 where
  lhsContracting := [1]
  rhsContracting := [0]
  lhsNonContracting := [0]
  rhsNonContracting := [1]
  lhsBatch := []
  rhsBatch := []
  wf := dot_S35x35_S35x280_S35x280_1_0_0_1_n_n_wf
def dot_S35x280_S280x35_S35x35_1_0_0_1_n_n : DotDims S35x280 S280x35 S35x35 where
  lhsContracting := [1]
  rhsContracting := [0]
  lhsNonContracting := [0]
  rhsNonContracting := [1]
  lhsBatch := []
  rhsBatch := []
  wf := dot_S35x280_S280x35_S35x35_1_0_0_1_n_n_wf

class Facts : Prop extends Facts₀ where

variable [Facts]
-- ==== Proof.LibPlainDot.lean ====
/-
  A plain matrix product read at an index, at the ideal values.

  For the dimension numbers of an `M × K` by `K × N` product with no batch axis (`DotDims.plain M K N`: the left
  operand contracted on its columns, the right on its rows), the operand indices at the result index `(r, c)` and the
  contraction position `k` are `(r, k)` and `(k, c)`. So both the host's `dot_general` and a kernel's `tpu.matmul`
  into a zero accumulator are, at `(r, c)`, the textbook sum `∑ k, X (r, k) · W (k, c)` over the extended reals —
  whatever the extents, the element formats of the operands and the precision or schedule keys.
-/
import Idealize.ShloMosaic.Lib.ValueIdx
import Idealize.ShloMosaic.PureOps.Ideal.Laws

noncomputable section

namespace Idealize.ShloMosaic.PlainDot

open Idealize.ShloMosaic Idealize.ShloMosaic.ValueIdx

variable {φ₁ φ₂ : FTy}

/-- The plain product contracts over one axis, -/
theorem contr_rank (M K N : Nat) : (DotDims.plain M K N).contr.rank = 1 := rfl
/-- of extent `K`. -/
theorem contr_size (M K N : Nat) : (DotDims.plain M K N).contr.size ⟨0, by rw [contr_rank]; omega⟩ = K := rfl

/-- The left operand's index at result index `(r, c)` and the `k`-th contraction position is `(r, k)`. -/
theorem lhsIdx_ix2 (M K N : Nat) (r : Fin M) (c : Fin N) (k : Fin K) :
    (DotDims.plain M K N).lhsIdx (ix2 r c) ((contrEquiv1 (DotDims.plain M K N) K rfl rfl).symm k) = ix2 r k :=
  funext fun a => Fin.ext (by
    match a with
    | ⟨0, _⟩ => rfl
    | ⟨1, _⟩ => exact contrEquiv1_symm_val (DotDims.plain M K N) K rfl rfl k)

/-- The right operand's is `(k, c)`. -/
theorem rhsIdx_ix2 (M K N : Nat) (r : Fin M) (c : Fin N) (k : Fin K) :
    (DotDims.plain M K N).rhsIdx (ix2 r c) ((contrEquiv1 (DotDims.plain M K N) K rfl rfl).symm k) = ix2 k c :=
  funext fun a => Fin.ext (by
    match a with
    | ⟨0, _⟩ => exact contrEquiv1_symm_val (DotDims.plain M K N) K rfl rfl k
    | ⟨1, _⟩ => rfl)

/-- The host's plain `dot_general` at `(r, c)`: the sum over `k` of `X (r, k) · W (k, c)`. -/
theorem dotGeneral_apply (M K N : Nat) (prec : Option ContractPrecision) (sched : HostSchedule)
    (X : FVec Ideal ⟨2, ![M, K]⟩ φ₁) (W : FVec Ideal ⟨2, ![K, N]⟩ φ₂) (r : Fin M) (c : Fin N) :
    FloatOps.dotGeneral (DotDims.plain M K N) prec sched X W (ix2 r c) = ∑ k : Fin K, X (ix2 r k) * W (ix2 k c) := by
  rw [Ideal.dotGeneral_apply, ← Equiv.sum_comp (contrEquiv1 (DotDims.plain M K N) K rfl rfl).symm]
  refine Finset.sum_congr rfl fun k _ => ?_
  rw [lhsIdx_ix2, rhsIdx_ix2]

/-- A kernel's plain `tpu.matmul` into the zero accumulator at `(r, c)`: the same sum. -/
theorem matmul_zero_apply (M K N : Nat) (prec : Option ContractPrecision)
    (X : FVec Ideal ⟨2, ![M, K]⟩ φ₁) (W : FVec Ideal ⟨2, ![K, N]⟩ φ₂) (r : Fin M) (c : Fin N) :
    FloatOps.matmul (DotDims.plain M K N) prec X W (constant ⟨2, ![M, N]⟩ .f32 0x00000000#32) (ix2 r c)
      = ∑ k : Fin K, X (ix2 r k) * W (ix2 k c) := by
  rw [Ideal.matmul_constant_zero_apply, ← Equiv.sum_comp (contrEquiv1 (DotDims.plain M K N) K rfl rfl).symm]
  refine Finset.sum_congr rfl fun k _ => ?_
  rw [lhsIdx_ix2, rhsIdx_ix2]

end Idealize.ShloMosaic.PlainDot

end
-- ==== Proof.LibWholeMat.lean ====
/-
  Whole-matrix functions over the extended reals, and the kernel's and the host's operations read as them.

  For any extents: the zero matrix Z, the matrix product mm (entry (r, c) the sum over k of a (r, k) · w (k, c)), plane k
  of a stack of matrices, row k of a matrix repeated down M rows (rowb), a vector repeated down M rows (vecb). A product
  with the zero matrix on either side is the zero matrix, with no finiteness assumed: over the extended reals x · 0 = 0
  for every x, the infinities included.
  Then each spelling of these in a printed program, as an equation between whole arrays (no index in sight), stated for
  any extents so that it applies to a printed operation by unification:
    • a vector unit's plain matrix product into the zero accumulator, its operands narrowed to bf16 or already bf16, and
      the host's plain dot_general, are mm (a change of float format is the identity on extended reals; the dimension
      record is any record equal to the plain one, which a printed plain record is by rfl);
    • a [1, M, N] block cut from a stack at offsets (o, 0, 0) and viewed as [M, N] is plane o;
    • a [1, N] block cut from a matrix at offsets (o, 0), broadcast to [M, N] by one broadcast (a kernel), or flattened
      and broadcast twice through [1, N] (the host), is rowb; a vector viewed as [1, N] and broadcast, or broadcast twice,
      is vecb; a vector flattened to [N] and viewed again as [1, N] is itself;
    • the dense all-zero constant, a kernel's splat of the zero word and the host's broadcast of the zero scalar are Z;
      the word 0x3F800000 is the real number one;
    • the host's 1 / (1 + exp (−x)), its ones splats of that word, is the logistic function, and its tanh the kernel's.
-/
import Idealize.ShloMosaic.Lib.ValueIdx
import Idealize.ShloMosaic.Lib.ValueLayout
import Idealize.ShloMosaic.Lib.Pipeline.Value
import Idealize.ShloMosaic.PureOps.Ideal.Laws
import proofs.«122528_j48868137894020_1_alg».proof.Proof.LibPlainDot

noncomputable section

open scoped BigOperators

namespace Cert.WholeMat

open Idealize.ShloMosaic Idealize.ShloMosaic.ValueIdx

/-- An M × N matrix of extended reals. -/
abbrev Mat (M N : Nat) : Type := FVec Ideal ⟨2, ![M, N]⟩ .f32

variable {M K N R : Nat}

/-- The zero matrix. -/
def Z (M N : Nat) : Mat M N := fun _ => 0

/-- The matrix product: entry (r, c) is the sum over k of a (r, k) · w (k, c). -/
def mm (a : Mat M K) (w : Mat K N) : Mat M N :=
  fun i => ∑ k : Fin K, a (ix2 ⟨(i 0).val, idx2_lt0 i⟩ k) * w (ix2 k ⟨(i 1).val, idx2_lt1 i⟩)

theorem mm_apply (a : Mat M K) (w : Mat K N) (r : Fin M) (c : Fin N) :
    mm a w (ix2 r c) = ∑ k : Fin K, a (ix2 r k) * w (ix2 k c) := rfl

/-- Plane k of a stack of R matrices. -/
def plane (W : FVec Ideal ⟨3, ![R, M, N]⟩ .f32) (k : Fin R) : Mat M N :=
  fun i => W (ix3 k ⟨(i 0).val, idx2_lt0 i⟩ ⟨(i 1).val, idx2_lt1 i⟩)

theorem plane_apply (W : FVec Ideal ⟨3, ![R, M, N]⟩ .f32) (k : Fin R) (r : Fin M) (c : Fin N) :
    plane W k (ix2 r c) = W (ix3 k r c) := rfl

/-- Row k of an R × N matrix, repeated down M rows. -/
def rowb (b : Mat R N) (k : Fin R) (M : Nat) : Mat M N := fun i => b (ix2 k ⟨(i 1).val, idx2_lt1 i⟩)

theorem rowb_apply (b : Mat R N) (k : Fin R) (r : Fin M) (c : Fin N) : rowb b k M (ix2 r c) = b (ix2 k c) := rfl

/-- A vector of length N, repeated down M rows. -/
def vecb (v : FVec Ideal ⟨1, ![N]⟩ .f32) (M : Nat) : Mat M N := fun i => v (ix1 ⟨(i 1).val, idx2_lt1 i⟩)

theorem vecb_apply (v : FVec Ideal ⟨1, ![N]⟩ .f32) (r : Fin M) (c : Fin N) : vecb v M (ix2 r c) = v (ix1 c) := rfl

/-- A product with the zero matrix on the right is zero: every term is x · 0 = 0, also for infinite x. -/
theorem mm_Z_right (a : Mat M K) : mm a (Z K N) = Z M N :=
  funext fun _ => Finset.sum_eq_zero fun _ _ => mul_zero _

/-- A product with the zero matrix on the left is zero. -/
theorem mm_Z_left (w : Mat K N) : mm (Z M K) w = Z M N :=
  funext fun _ => Finset.sum_eq_zero fun _ _ => zero_mul _

/-! ## Zero -/

/-- The dense all-zero constant is the zero matrix. -/
theorem constant_zero : constant (F := Ideal) ⟨2, ![M, N]⟩ .f32 0x00000000#32 = Z M N :=
  funext fun _ => Ideal.ofBits_zero_f32

/-- The kernel's splat of the all-zero word is the zero matrix. -/
theorem splat_zero : broadcast ⟨2, ![M, N]⟩ (Scalar.ofBits (F := Ideal) .f32 0x00000000#32) = Z M N :=
  funext fun _ => Ideal.ofBits_zero_f32

/-- The host's broadcast of the all-zero scalar is the zero matrix. -/
theorem hostSplat_zero (dims : Fin 0 → Fin 2) (h : (⟨0, ![]⟩ : Shape).BroadcastsInDim ⟨2, ![M, N]⟩ dims) :
    broadcastInDim ⟨2, ![M, N]⟩ dims h (constant (F := Ideal) ⟨0, ![]⟩ .f32 0x00000000#32) = Z M N :=
  funext fun _ => Ideal.ofBits_zero_f32

/-- The word 0x3F800000 is the real number one. -/
theorem one_word : Ideal.ofBits .f32 0x3F800000#32 = 1 := by
  simp [Ideal.ofBits, Ideal.ieee, -EReal.coe_mul]; norm_num

/-! ## Products -/

/-- A vector unit's plain product of narrowed operands into the zero accumulator is the matrix product. -/
theorem matmul_eq_mm (d : DotDims ⟨2, ![M, K]⟩ ⟨2, ![K, N]⟩ ⟨2, ![M, N]⟩) (hd : d = DotDims.plain M K N)
    (prec : Option ContractPrecision) (a : Mat M K) (w : Mat K N) (h1 : FTy.bf16.bits < FTy.f32.bits)
    (h2 : FTy.bf16.bits < FTy.f32.bits) :
    matmul d prec (truncf .bf16 a h1) (truncf .bf16 w h2) (constant ⟨2, ![M, N]⟩ .f32 0x00000000#32) = mm a w := by
  subst hd
  funext i
  obtain ⟨r, c, rfl⟩ : ∃ (r : Fin M) (c : Fin N), i = ix2 r c := ⟨i 0, i 1, eq_ix2 i⟩
  exact PlainDot.matmul_zero_apply M K N prec (truncf .bf16 a h1) (truncf .bf16 w h2) r c

/-- The same with the left operand already narrowed. -/
theorem matmul_eq_mm_left (d : DotDims ⟨2, ![M, K]⟩ ⟨2, ![K, N]⟩ ⟨2, ![M, N]⟩) (hd : d = DotDims.plain M K N)
    (prec : Option ContractPrecision) (a : FVec Ideal ⟨2, ![M, K]⟩ .bf16) (w : FVec Ideal ⟨2, ![K, N]⟩ .bf16) :
    matmul d prec a w (constant ⟨2, ![M, N]⟩ .f32 0x00000000#32) = mm (a : Mat M K) (w : Mat K N) := by
  subst hd
  funext i
  obtain ⟨r, c, rfl⟩ : ∃ (r : Fin M) (c : Fin N), i = ix2 r c := ⟨i 0, i 1, eq_ix2 i⟩
  exact PlainDot.matmul_zero_apply M K N prec a w r c

/-- The host's plain dot_general is the matrix product. -/
theorem dotGeneral_eq_mm (d : DotDims ⟨2, ![M, K]⟩ ⟨2, ![K, N]⟩ ⟨2, ![M, N]⟩) (hd : d = DotDims.plain M K N)
    (prec : Option ContractPrecision) (a : Mat M K) (w : Mat K N) :
    Host.dotGeneral d prec a w = mm a w := by
  subst hd
  funext i
  obtain ⟨r, c, rfl⟩ : ∃ (r : Fin M) (c : Fin N), i = ix2 r c := ⟨i 0, i 1, eq_ix2 i⟩
  exact PlainDot.dotGeneral_apply M K N prec .single a w r c

/-! ## Planes and rows -/

/-- Plane o of a stack, cut out and viewed as a matrix. -/
theorem slice_plane (W : FVec Ideal ⟨3, ![R, M, N]⟩ .f32) (o : Nat) (ho : o < R)
    (hs : (⟨3, ![R, M, N]⟩ : Shape).Slices ![o, 0, 0] ⟨3, ![1, M, N]⟩)
    (hc : (⟨3, ![1, M, N]⟩ : Shape).ShapeCasts ⟨2, ![M, N]⟩) :
    shapeCast ⟨2, ![M, N]⟩ (extractStridedSlice ⟨3, ![1, M, N]⟩ ![o, 0, 0] W hs) hc = plane W ⟨o, ho⟩ := by
  funext i
  obtain ⟨r, c, rfl⟩ : ∃ (r : Fin M) (c : Fin N), i = ix2 r c := ⟨i 0, i 1, eq_ix2 i⟩
  rw [shapeCast_1ab_ab_apply]
  refine extractStridedSlice_apply _ W hs _ (ix3 ⟨o, ho⟩ r c) fun a => ?_
  match a with
  | ⟨0, _⟩ => rfl
  | ⟨1, _⟩ => show r.val = 0 + r.val; omega
  | ⟨2, _⟩ => show c.val = 0 + c.val; omega

/-- A vector viewed as a one-row matrix and back. -/
theorem row_vec_row (x : Mat 1 N) (h1 : (⟨2, ![1, N]⟩ : Shape).ShapeCasts ⟨1, ![N]⟩)
    (h2 : (⟨1, ![N]⟩ : Shape).ShapeCasts ⟨2, ![1, N]⟩) :
    shapeCast ⟨2, ![1, N]⟩ (shapeCast ⟨1, ![N]⟩ x h1) h2 = x :=
  shapeCast_shapeCast x h1 h2

/-- Row o of a matrix, cut out and repeated down M rows by one broadcast. -/
theorem slice_rowb (b : Mat R N) (o : Nat) (ho : o < R)
    (hs : (⟨2, ![R, N]⟩ : Shape).Slices ![o, 0] ⟨2, ![1, N]⟩)
    (hb : (⟨2, ![1, N]⟩ : Shape).Broadcasts ⟨2, ![M, N]⟩) :
    broadcastTo ⟨2, ![M, N]⟩ (extractStridedSlice ⟨2, ![1, N]⟩ ![o, 0] b hs) hb = rowb b ⟨o, ho⟩ M := by
  funext i
  obtain ⟨r, c, rfl⟩ : ∃ (r : Fin M) (c : Fin N), i = ix2 r c := ⟨i 0, i 1, eq_ix2 i⟩
  rw [broadcastTo_1b_ab_apply]
  refine extractStridedSlice_apply _ b hs _ (ix2 ⟨o, ho⟩ c) fun a => ?_
  match a with
  | ⟨0, _⟩ => rfl
  | ⟨1, _⟩ => show c.val = 0 + c.val; omega

/-- Row o of a matrix, cut out, flattened to a vector, and repeated down M rows by the host's two broadcasts. -/
theorem hostSlice_rowb (b : Mat R N) (o : Nat) (ho : o < R)
    (hs : (⟨2, ![R, N]⟩ : Shape).Slices ![o, 0] ⟨2, ![1, N]⟩)
    (hc : (⟨2, ![1, N]⟩ : Shape).ShapeCasts ⟨1, ![N]⟩)
    (d1 : Fin 1 → Fin 2) (hd1 : d1 = ![1]) (hb1 : (⟨1, ![N]⟩ : Shape).BroadcastsInDim ⟨2, ![1, N]⟩ d1)
    (d2 : Fin 2 → Fin 2) (hd2 : d2 = ![0, 1]) (hb2 : (⟨2, ![1, N]⟩ : Shape).BroadcastsInDim ⟨2, ![M, N]⟩ d2) :
    broadcastInDim ⟨2, ![M, N]⟩ d2 hb2 (broadcastInDim ⟨2, ![1, N]⟩ d1 hb1
      (shapeCast ⟨1, ![N]⟩ (extractStridedSlice ⟨2, ![1, N]⟩ ![o, 0] b hs) hc)) = rowb b ⟨o, ho⟩ M := by
  subst hd1 hd2
  funext i
  obtain ⟨r, c, rfl⟩ : ∃ (r : Fin M) (c : Fin N), i = ix2 r c := ⟨i 0, i 1, eq_ix2 i⟩
  rw [broadcastInDim_apply _ hb2 _ (ix2 r c) (ix2 (0 : Fin 1) c) (fun a => by
    match a with
    | ⟨0, _⟩ => rfl
    | ⟨1, _⟩ =>
      show c.val = if N = 1 then 0 else c.val
      split
      · have := c.isLt; omega
      · rfl)]
  rw [broadcastInDim_apply _ hb1 _ (ix2 (0 : Fin 1) c) (ix1 c) (fun a => by
    match a with
    | ⟨0, _⟩ =>
      show c.val = if N = 1 then 0 else c.val
      split
      · have := c.isLt; omega
      · rfl)]
  rw [shapeCast_1a_a_apply]
  refine extractStridedSlice_apply _ b hs _ (ix2 ⟨o, ho⟩ c) fun a => ?_
  match a with
  | ⟨0, _⟩ => rfl
  | ⟨1, _⟩ => show c.val = 0 + c.val; omega

/-- A vector viewed as a one-row matrix and repeated down M rows (the kernel's bias vector). -/
theorem vec_rowb (v : FVec Ideal ⟨1, ![N]⟩ .f32) (hc : (⟨1, ![N]⟩ : Shape).ShapeCasts ⟨2, ![1, N]⟩)
    (hb : (⟨2, ![1, N]⟩ : Shape).Broadcasts ⟨2, ![M, N]⟩) :
    broadcastTo ⟨2, ![M, N]⟩ (shapeCast ⟨2, ![1, N]⟩ v hc) hb = vecb v M := by
  funext i
  obtain ⟨r, c, rfl⟩ : ∃ (r : Fin M) (c : Fin N), i = ix2 r c := ⟨i 0, i 1, eq_ix2 i⟩
  rw [broadcastTo_1b_ab_apply, shapeCast_a_1a_apply]
  rfl

/-- A vector repeated down M rows by the host's two broadcasts (the reference's bias vector). -/
theorem hostVec_rowb (v : FVec Ideal ⟨1, ![N]⟩ .f32)
    (d1 : Fin 1 → Fin 2) (hd1 : d1 = ![1]) (hb1 : (⟨1, ![N]⟩ : Shape).BroadcastsInDim ⟨2, ![1, N]⟩ d1)
    (d2 : Fin 2 → Fin 2) (hd2 : d2 = ![0, 1]) (hb2 : (⟨2, ![1, N]⟩ : Shape).BroadcastsInDim ⟨2, ![M, N]⟩ d2) :
    broadcastInDim ⟨2, ![M, N]⟩ d2 hb2 (broadcastInDim ⟨2, ![1, N]⟩ d1 hb1 v) = vecb v M := by
  subst hd1 hd2
  funext i
  obtain ⟨r, c, rfl⟩ : ∃ (r : Fin M) (c : Fin N), i = ix2 r c := ⟨i 0, i 1, eq_ix2 i⟩
  rw [broadcastInDim_apply _ hb2 _ (ix2 r c) (ix2 (0 : Fin 1) c) (fun a => by
    match a with
    | ⟨0, _⟩ => rfl
    | ⟨1, _⟩ =>
      show c.val = if N = 1 then 0 else c.val
      split
      · have := c.isLt; omega
      · rfl)]
  rw [broadcastInDim_apply _ hb1 _ (ix2 (0 : Fin 1) c) (ix1 c) (fun a => by
    match a with
    | ⟨0, _⟩ =>
      show c.val = if N = 1 then 0 else c.val
      split
      · have := c.isLt; omega
      · rfl)]
  rfl

/-! ## The host's transcendentals -/

/-- The host's 1 / (1 + exp (−x)), its ones splats of the word of 1.0, is the logistic function. -/
theorem hostLogistic (x : Mat M N) (dims : Fin 0 → Fin 2) (h h' : (⟨0, ![]⟩ : Shape).BroadcastsInDim ⟨2, ![M, N]⟩ dims) :
    Host.divf (broadcastInDim ⟨2, ![M, N]⟩ dims h (constant (F := Ideal) ⟨0, ![]⟩ .f32 0x3F800000#32))
      (addf (broadcastInDim ⟨2, ![M, N]⟩ dims h' (constant (F := Ideal) ⟨0, ![]⟩ .f32 0x3F800000#32)) (Host.exp (Host.negf x)))
      = logistic x := by
  funext i
  show Ideal.div (Ideal.ofBits .f32 0x3F800000#32) (Ideal.ofBits .f32 0x3F800000#32 + Ideal.exp (-(x i))) = Ideal.logistic (x i)
  rw [one_word]
  rfl

/-- The host's tanh is the kernel's. -/
theorem hostTanh (x : Mat M N) : Host.tanh x = tanh x := rfl

end Cert.WholeMat

end
-- ==== Proof.Cell.lean ====
/-
  The graph-convolutional LSTM cell over the extended reals, as whole-matrix functions.

  One step of the cell from the zero state (hidden state H = 0, cell state C = 0), for an input matrix X (M × K),
  input weights W (four K × N planes, gates i, f, c, o), convolution biases cb and gate biases b (four rows each) and
  peephole rows pe (three rows):
      pre k  = X · W k + ((H · U k + (L · H) · V k) + cb k)          with H = 0
      I  = σ (pre 0 + pe 0 ∘ C + b 0)          F = σ (pre 1 + pe 1 ∘ C + b 1)          with C = 0
      T  = tanh (pre 2 + b 2)                  C' = F ∘ C + I ∘ T
      O  = σ (pre 3 + pe 2 ∘ C' + b 3)         H' = O ∘ tanh C'
  Because H = 0, both graph-convolution products are the zero matrix whatever the Laplacian L and the weights U, V are:
  over the extended reals x · 0 = 0 for EVERY x, the infinities included, and a finite sum of zeros is zero. So the
  products are written here as the zero matrix Z, and L, U and V do not occur. The network is two such cells, each
  followed by the rectifier, then a dense layer with a bias vector and the rectifier.
-/
import proofs.«122528_j48868137894020_1_alg».proof.Proof.LibWholeMat

noncomputable section

namespace Cert.Cell

open Idealize.ShloMosaic Idealize.ShloMosaic.ValueIdx

export Cert.WholeMat (Mat Z mm mm_apply plane plane_apply rowb rowb_apply vecb vecb_apply mm_Z_right mm_Z_left)

variable {M K N : Nat}

/-! ## The cell -/

/-- Gate k's affine part: X · W k, plus the graph convolution of the zero state (two zero products) and its bias row. -/
def pre (X : Mat M K) (W : FVec Ideal ⟨3, ![4, K, N]⟩ .f32) (cb : Mat 4 N) (k : Fin 4) : Mat M N :=
  addf (mm X (plane W k)) (addf (addf (Z M N) (Z M N)) (rowb cb k M))

/-- The input gate. -/
def gI (X : Mat M K) (W : FVec Ideal ⟨3, ![4, K, N]⟩ .f32) (cb : Mat 4 N) (pe : Mat 3 N) (b : Mat 4 N) : Mat M N :=
  logistic (addf (addf (pre X W cb 0) (mulf (rowb pe 0 M) (Z M N))) (rowb b 0 M))

/-- The forget gate. -/
def gF (X : Mat M K) (W : FVec Ideal ⟨3, ![4, K, N]⟩ .f32) (cb : Mat 4 N) (pe : Mat 3 N) (b : Mat 4 N) : Mat M N :=
  logistic (addf (addf (pre X W cb 1) (mulf (rowb pe 1 M) (Z M N))) (rowb b 1 M))

/-- The candidate. -/
def gT (X : Mat M K) (W : FVec Ideal ⟨3, ![4, K, N]⟩ .f32) (cb : Mat 4 N) (b : Mat 4 N) : Mat M N :=
  tanh (addf (pre X W cb 2) (rowb b 2 M))

/-- The new cell state F ∘ 0 + I ∘ T. -/
def cC (X : Mat M K) (W : FVec Ideal ⟨3, ![4, K, N]⟩ .f32) (cb : Mat 4 N) (pe : Mat 3 N) (b : Mat 4 N) : Mat M N :=
  addf (mulf (gF X W cb pe b) (Z M N)) (mulf (gI X W cb pe b) (gT X W cb b))

/-- The output gate. -/
def gO (X : Mat M K) (W : FVec Ideal ⟨3, ![4, K, N]⟩ .f32) (cb : Mat 4 N) (pe : Mat 3 N) (b : Mat 4 N) : Mat M N :=
  logistic (addf (addf (pre X W cb 3) (mulf (rowb pe 2 M) (cC X W cb pe b))) (rowb b 3 M))

/-- The rectified new hidden state max (O ∘ tanh C') 0. -/
def hid (X : Mat M K) (W : FVec Ideal ⟨3, ![4, K, N]⟩ .f32) (cb : Mat 4 N) (pe : Mat 3 N) (b : Mat 4 N) : Mat M N :=
  maximumf (mulf (gO X W cb pe b) (tanh (cC X W cb pe b))) (Z M N)

/-- The network: two cells, a dense layer with a bias vector, the rectifier. -/
def net {K₁ K₂ P : Nat} (A : Mat M K) (W1 : FVec Ideal ⟨3, ![4, K, K₁]⟩ .f32) (cb1 : Mat 4 K₁) (pe1 : Mat 3 K₁) (b1 : Mat 4 K₁)
    (W2 : FVec Ideal ⟨3, ![4, K₁, K₂]⟩ .f32) (cb2 : Mat 4 K₂) (pe2 : Mat 3 K₂) (b2 : Mat 4 K₂)
    (fw : Mat K₂ P) (fb : FVec Ideal ⟨1, ![P]⟩ .f32) : Mat M P :=
  maximumf (addf (mm (hid (hid A W1 cb1 pe1 b1) W2 cb2 pe2 b2) fw) (vecb fb M)) (Z M P)

end Cert.Cell

end
-- ==== Proof.KernelValue.lean ====
/-
  The kernel's value: the idealized kernel's body, payload by payload, is the two-layer graph-convolutional LSTM
  network of whole-matrix functions over the extended reals.

  Each cell starts from the zero hidden state and the zero cell state. Every graph-convolution term of a gate is a
  matrix product one of whose factors is the zero matrix, so it is the zero matrix whatever the other factor is
  (x · 0 = 0 for every extended real x, the infinities included): the normalized Laplacian and the recurrent weights
  never matter, and are kept as variables. What remains of a gate is X · W k plus bias rows, in the kernel's own
  association, which is the cell's definition unfolded.
-/
import proofs.«122528_j48868137894020_1_alg».proof.Proof.Gen.KernelIdeal.Value
import proofs.«122528_j48868137894020_1_alg».proof.Proof.Cell

noncomputable section

namespace Cert.KernelIdeal.KValue

open Cert.KernelIdeal Cert.KernelIdeal.Gen Idealize.ShloMosaic Idealize.ShloMosaic.TcCoe Idealize.SL.Sem Idealize.ShloMosaic.ValueIdx Cert.Cell

/-! ## The first cell -/

/-- The first cell's zero hidden state. -/
theorem pay3_eq : k0_pay3 (F := Ideal) = Z 35 140 := Cert.WholeMat.splat_zero

/-- The first cell's zero cell state. -/
theorem pay4_eq : k0_pay4 (F := Ideal) = Z 35 140 := Cert.WholeMat.splat_zero

/-- The first cell's input gate. -/
theorem pay5_eq (v0 : Vec Ideal S35x35 .f32) (v36 : FVec Ideal S35x35 .f32) (v37 : Vec Ideal S4x35x140 .f32)
    (v38 : Vec Ideal S4x2x140x140 .f32) (v39 : Vec Ideal S4x140 .f32) (v40 : Vec Ideal S3x140 .f32)
    (v41 : Vec Ideal S4x140 .f32) :
    k0_pay5 v0 v36 v37 v38 v39 v40 v41 = gI v0 v37 v39 v40 v41 := by
  unfold k0_pay5 gI pre
  simp only [pay3_eq, pay4_eq,
    Cert.WholeMat.matmul_eq_mm dot_S35x35_S35x140_S35x140_1_0_0_1_n_n rfl,
    Cert.WholeMat.matmul_eq_mm dot_S35x140_S140x140_S35x140_1_0_0_1_n_n rfl,
    Cert.WholeMat.slice_plane (R := 4) _ 0 (by decide), Cert.WholeMat.row_vec_row,
    Cert.WholeMat.slice_rowb (R := 4) _ 0 (by decide), Cert.WholeMat.slice_rowb (R := 3) _ 0 (by decide),
    mm_Z_left, mm_Z_right]
  rfl

/-- The first cell's forget gate. -/
theorem pay8_eq (v0 : Vec Ideal S35x35 .f32) (v36 : FVec Ideal S35x35 .f32) (v37 : Vec Ideal S4x35x140 .f32)
    (v38 : Vec Ideal S4x2x140x140 .f32) (v39 : Vec Ideal S4x140 .f32) (v40 : Vec Ideal S3x140 .f32)
    (v41 : Vec Ideal S4x140 .f32) :
    k0_pay8 v36 v38 v39 v40 v41 (Z 35 140) (Z 35 140) (k0_pay6 v0) (k0_pay7 v37)
      (constant S35x140 .f32 0x00000000#32) = gF v0 v37 v39 v40 v41 := by
  unfold k0_pay8 k0_pay6 k0_pay7 gF pre
  simp only [Cert.WholeMat.matmul_eq_mm dot_S35x35_S35x140_S35x140_1_0_0_1_n_n rfl,
    Cert.WholeMat.matmul_eq_mm dot_S35x140_S140x140_S35x140_1_0_0_1_n_n rfl,
    Cert.WholeMat.slice_plane (R := 4) _ 1 (by decide), Cert.WholeMat.row_vec_row,
    Cert.WholeMat.slice_rowb (R := 4) _ 1 (by decide), Cert.WholeMat.slice_rowb (R := 3) _ 1 (by decide),
    mm_Z_left, mm_Z_right]
  rfl

/-- The first cell's candidate: the input's product with plane 2 of the input weights. -/
theorem pay9_eq (v0 : Vec Ideal S35x35 .f32) (v37 : Vec Ideal S4x35x140 .f32) :
    k0_pay9 v0 v37 = mm v0 (plane v37 2) := by
  unfold k0_pay9
  simp only [Cert.WholeMat.matmul_eq_mm dot_S35x35_S35x140_S35x140_1_0_0_1_n_n rfl,
    Cert.WholeMat.slice_plane (R := 4) _ 2 (by decide)]
  rfl

/-- The first cell's candidate: the graph convolution of the zero state. -/
theorem pay10_eq (v36 : FVec Ideal S35x35 .f32) (v38 : Vec Ideal S4x2x140x140 .f32) :
    k0_pay10 v36 v38 (Z 35 140) = addf (Z 35 140) (Z 35 140) := by
  unfold k0_pay10
  simp only [Cert.WholeMat.matmul_eq_mm dot_S35x35_S35x140_S35x140_1_0_0_1_n_n rfl,
    Cert.WholeMat.matmul_eq_mm dot_S35x140_S140x140_S35x140_1_0_0_1_n_n rfl, mm_Z_left, mm_Z_right]

/-- The first cell, rectified. -/
theorem layer1 (v0 : Vec Ideal S35x35 .f32) (v36 : FVec Ideal S35x35 .f32) (v37 : Vec Ideal S4x35x140 .f32) (v38 : Vec Ideal S4x2x140x140 .f32) (v39 : Vec Ideal S4x140 .f32) (v40 : Vec Ideal S3x140 .f32) (v41 : Vec Ideal S4x140 .f32) :
    k0_pay12 v0 v36 v37 v38 v39 v40 v41 (k0_pay3 (F := Ideal)) (k0_pay4 (F := Ideal)) (k0_pay5 v0 v36 v37 v38 v39 v40 v41)
      (k0_pay8 v36 v38 v39 v40 v41 (k0_pay3 (F := Ideal)) (k0_pay4 (F := Ideal)) (k0_pay6 v0) (k0_pay7 v37) (constant S35x140 .f32 0x00000000#32))
      (k0_pay9 v0 v37) (k0_pay10 v36 v38 (k0_pay3 (F := Ideal))) (k0_pay11 v39)
    = hid v0 v37 v39 v40 v41 := by
  rw [pay3_eq, pay4_eq, pay5_eq, pay8_eq, pay9_eq, pay10_eq]
  unfold k0_pay12 k0_pay11 hid gO cC gT pre
  simp only [Cert.WholeMat.matmul_eq_mm dot_S35x35_S35x140_S35x140_1_0_0_1_n_n rfl,
    Cert.WholeMat.matmul_eq_mm dot_S35x140_S140x140_S35x140_1_0_0_1_n_n rfl,
    Cert.WholeMat.slice_plane (R := 4) _ 3 (by decide), Cert.WholeMat.row_vec_row,
    Cert.WholeMat.slice_rowb (R := 4) _ 2 (by decide), Cert.WholeMat.slice_rowb (R := 4) _ 3 (by decide),
    Cert.WholeMat.slice_rowb (R := 3) _ 2 (by decide), Cert.WholeMat.splat_zero,
    mm_Z_left, mm_Z_right]
  rfl

/-! ## The second cell and the dense layer -/

/-- The second cell's zero hidden state. -/
theorem pay13_eq : k0_pay13 (F := Ideal) = Z 35 280 := Cert.WholeMat.splat_zero

/-- The second cell's zero cell state. -/
theorem pay14_eq : k0_pay14 (F := Ideal) = Z 35 280 := Cert.WholeMat.splat_zero

/-- The second cell's input gate. -/
theorem pay17_eq (h : FVec Ideal S35x140 .f32) (v36 : FVec Ideal S35x35 .f32) (v193 : Vec Ideal S4x140x280 .f32)
    (v194 : Vec Ideal S4x2x280x280 .f32) (v195 : Vec Ideal S4x280 .f32) (v196 : Vec Ideal S3x280 .f32)
    (v197 : Vec Ideal S4x280 .f32) :
    k0_pay17 (k0_pay15 v36 h v193 v194 v195 v196) (k0_pay16 v197) = gI h v193 v195 v196 v197 := by
  unfold k0_pay17 k0_pay15 k0_pay16 gI pre
  simp only [pay13_eq, pay14_eq,
    Cert.WholeMat.matmul_eq_mm dot_S35x140_S140x280_S35x280_1_0_0_1_n_n rfl,
    Cert.WholeMat.matmul_eq_mm dot_S35x280_S280x280_S35x280_1_0_0_1_n_n rfl,
    Cert.WholeMat.matmul_eq_mm dot_S35x35_S35x280_S35x280_1_0_0_1_n_n rfl,
    Cert.WholeMat.slice_plane (R := 4) _ 0 (by decide), Cert.WholeMat.row_vec_row,
    Cert.WholeMat.slice_rowb (R := 4) _ 0 (by decide), Cert.WholeMat.slice_rowb (R := 3) _ 0 (by decide),
    mm_Z_left, mm_Z_right]
  rfl

/-- The second cell's forget gate. -/
theorem pay18_eq (h : FVec Ideal S35x140 .f32) (v36 : FVec Ideal S35x35 .f32) (v193 : Vec Ideal S4x140x280 .f32)
    (v194 : Vec Ideal S4x2x280x280 .f32) (v195 : Vec Ideal S4x280 .f32) (v196 : Vec Ideal S3x280 .f32)
    (v197 : Vec Ideal S4x280 .f32) :
    k0_pay18 v36 h v193 v194 v195 v196 v197 (Z 35 280) (Z 35 280) = gF h v193 v195 v196 v197 := by
  unfold k0_pay18 gF pre
  simp only [Cert.WholeMat.matmul_eq_mm dot_S35x140_S140x280_S35x280_1_0_0_1_n_n rfl,
    Cert.WholeMat.matmul_eq_mm dot_S35x280_S280x280_S35x280_1_0_0_1_n_n rfl,
    Cert.WholeMat.matmul_eq_mm dot_S35x35_S35x280_S35x280_1_0_0_1_n_n rfl,
    Cert.WholeMat.slice_plane (R := 4) _ 1 (by decide), Cert.WholeMat.row_vec_row,
    Cert.WholeMat.slice_rowb (R := 4) _ 1 (by decide), Cert.WholeMat.slice_rowb (R := 3) _ 1 (by decide),
    mm_Z_left, mm_Z_right]
  rfl

/-- The second cell's candidate: the input's product with plane 2 of the input weights. -/
theorem pay19_eq (h : FVec Ideal S35x140 .f32) (v193 : Vec Ideal S4x140x280 .f32) :
    k0_pay19 h v193 = mm h (plane v193 2) := by
  unfold k0_pay19
  simp only [Cert.WholeMat.matmul_eq_mm dot_S35x140_S140x280_S35x280_1_0_0_1_n_n rfl,
    Cert.WholeMat.slice_plane (R := 4) _ 2 (by decide)]
  rfl

/-- The zero state's product with a recurrent weight is zero. -/
theorem pay20_eq (v194 : Vec Ideal S4x2x280x280 .f32) : k0_pay20 v194 (Z 35 280) = Z 35 280 := by
  unfold k0_pay20
  simp only [Cert.WholeMat.matmul_eq_mm dot_S35x280_S280x280_S35x280_1_0_0_1_n_n rfl, mm_Z_left]

/-- Any matrix's product with the zero state is zero. -/
theorem pay21_eq (v36 : FVec Ideal S35x35 .f32) : k0_pay21 v36 (Z 35 280) = Z 35 280 := by
  unfold k0_pay21
  simp only [Cert.WholeMat.matmul_eq_mm dot_S35x35_S35x280_S35x280_1_0_0_1_n_n rfl, mm_Z_right]

/-- The second cell's new cell state. -/
theorem pay22_eq (h : FVec Ideal S35x140 .f32) (v193 : Vec Ideal S4x140x280 .f32)
    (v194 : Vec Ideal S4x2x280x280 .f32) (v195 : Vec Ideal S4x280 .f32) (v196 : Vec Ideal S3x280 .f32)
    (v197 : Vec Ideal S4x280 .f32) :
    k0_pay22 v194 v195 v197 (Z 35 280) (gI h v193 v195 v196 v197) (gF h v193 v195 v196 v197)
      (mm h (plane v193 2)) (Z 35 280) (Z 35 280) = cC h v193 v195 v196 v197 := by
  unfold k0_pay22 cC gT pre
  simp only [Cert.WholeMat.matmul_eq_mm dot_S35x280_S280x280_S35x280_1_0_0_1_n_n rfl,
    Cert.WholeMat.row_vec_row, Cert.WholeMat.slice_rowb (R := 4) _ 2 (by decide), mm_Z_left]
  rfl

/-- The second cell's output gate before its last bias row. -/
theorem pay23_eq (h : FVec Ideal S35x140 .f32) (v36 : FVec Ideal S35x35 .f32) (v193 : Vec Ideal S4x140x280 .f32)
    (v194 : Vec Ideal S4x2x280x280 .f32) (v195 : Vec Ideal S4x280 .f32) (v196 : Vec Ideal S3x280 .f32)
    (v197 : Vec Ideal S4x280 .f32) :
    k0_pay23 v36 h v193 v194 v195 v196 v197 (Z 35 280) (Z 35 280) (gI h v193 v195 v196 v197)
      (gF h v193 v195 v196 v197) (mm h (plane v193 2)) (Z 35 280) (Z 35 280)
    = addf (pre h v193 v195 3) (mulf (rowb v196 2 35) (cC h v193 v195 v196 v197)) := by
  unfold k0_pay23 pre
  simp only [pay22_eq,
    Cert.WholeMat.matmul_eq_mm dot_S35x140_S140x280_S35x280_1_0_0_1_n_n rfl,
    Cert.WholeMat.matmul_eq_mm dot_S35x280_S280x280_S35x280_1_0_0_1_n_n rfl,
    Cert.WholeMat.matmul_eq_mm dot_S35x35_S35x280_S35x280_1_0_0_1_n_n rfl,
    Cert.WholeMat.slice_plane (R := 4) _ 3 (by decide), Cert.WholeMat.row_vec_row,
    Cert.WholeMat.slice_rowb (R := 4) _ 3 (by decide), Cert.WholeMat.slice_rowb (R := 3) _ 2 (by decide),
    mm_Z_left, mm_Z_right]
  rfl

/-- The second cell, rectified, then the dense layer with its bias vector, rectified. -/
theorem layer2 (h : FVec Ideal S35x140 .f32) (v36 : FVec Ideal S35x35 .f32) (v193 : Vec Ideal S4x140x280 .f32) (v194 : Vec Ideal S4x2x280x280 .f32) (v195 : Vec Ideal S4x280 .f32) (v196 : Vec Ideal S3x280 .f32) (v197 : Vec Ideal S4x280 .f32) (v349 : Vec Ideal S280x35 .f32) (v353 : Vec Ideal S35 .f32) :
    k0_pay1 (k0_pay22 v194 v195 v197 (k0_pay14 (F := Ideal)) (k0_pay17 (k0_pay15 v36 h v193 v194 v195 v196) (k0_pay16 v197)) (k0_pay18 v36 h v193 v194 v195 v196 v197 (k0_pay13 (F := Ideal)) (k0_pay14 (F := Ideal))) (k0_pay19 h v193) (k0_pay20 v194 (k0_pay13 (F := Ideal))) (k0_pay21 v36 (k0_pay13 (F := Ideal))))
            (k0_pay23 v36 h v193 v194 v195 v196 v197 (k0_pay13 (F := Ideal)) (k0_pay14 (F := Ideal)) (k0_pay17 (k0_pay15 v36 h v193 v194 v195 v196) (k0_pay16 v197)) (k0_pay18 v36 h v193 v194 v195 v196 v197 (k0_pay13 (F := Ideal)) (k0_pay14 (F := Ideal))) (k0_pay19 h v193) (k0_pay20 v194 (k0_pay13 (F := Ideal))) (k0_pay21 v36 (k0_pay13 (F := Ideal))))
            (k0_pay24 v197) v349 v353
    = maximumf (addf (mm (hid h v193 v195 v196 v197) v349) (vecb v353 35)) (Z 35 35) := by
  rw [pay13_eq, pay14_eq, pay17_eq, pay18_eq, pay19_eq, pay20_eq, pay21_eq, pay22_eq, pay23_eq]
  unfold k0_pay1 k0_pay24 hid gO
  simp only [Cert.WholeMat.matmul_eq_mm dot_S35x280_S280x35_S35x35_1_0_0_1_n_n rfl,
    Cert.WholeMat.row_vec_row, Cert.WholeMat.slice_rowb (R := 4) _ 3 (by decide), Cert.WholeMat.vec_rowb,
    Cert.WholeMat.splat_zero]
  rfl

/-! ## The body's result: the network of the input blocks -/

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The body loads every staging buffer whole and stores the output buffer whole, once: what it leaves is the network
    of what it loaded. The recurrent weights (the two rank-4 stacks) are loaded and multiplied by zero. -/
theorem out_eq (x0 : Vec Ideal S35x35 .f32) (x1 : Vec Ideal S4x35x140 .f32) (x2 : Vec Ideal S4x2x140x140 .f32) (x3 : Vec Ideal S4x140 .f32) (x4 : Vec Ideal S3x140 .f32) (x5 : Vec Ideal S4x140 .f32) (x6 : Vec Ideal S4x140x280 .f32) (x7 : Vec Ideal S4x2x280x280 .f32) (x8 : Vec Ideal S4x280 .f32) (x9 : Vec Ideal S3x280 .f32) (x10 : Vec Ideal S4x280 .f32) (x11 : Vec Ideal S280x35 .f32) (x12 : Vec Ideal S35 .f32) :
    out0_13 x0 x1 x2 x3 x4 x5 x6 x7 x8 x9 x10 x11 x12 = net x0 x1 x3 x4 x5 x6 x8 x9 x10 x11 x12 := by
  unfold out0_13
  rw [View.canon_unit_zero zero2]
  simp only [View.ld_unit_zero (S := S35x35) zero2, View.ld_unit_zero (S := S4x35x140) zero3,
    View.ld_unit_zero (S := S4x2x140x140) zero4, View.ld_unit_zero (S := S4x140) zero2,
    View.ld_unit_zero (S := S3x140) zero2, View.ld_unit_zero (S := S4x140x280) zero3,
    View.ld_unit_zero (S := S4x2x280x280) zero4, View.ld_unit_zero (S := S4x280) zero2,
    View.ld_unit_zero (S := S3x280) zero2, View.ld_unit_zero (S := S280x35) zero2,
    View.ld_unit_zero (S := S35) zero1]
  rw [layer1, layer2]
  rfl

/-! ## From the one block to the array

The grid has one point and every window's block is its whole array: a block read is the array, and the one
write-back writes the whole output array. -/

section Run

variable (m : (ℓ : Loc nD τ sig) → Buf (Elt Ideal) ℓ)

/-! Each input window's block at the one point is its argument array, read whole. -/

theorem iblk0 (c : Dev nD) (t : Fin cfg0.N) : iblk m c 0 t = m ((c : Thread nD τ).loc main_arg0) := by
  obtain rfl := fin_N0 t
  have hz : (fun a => win0_0.index t0_0 a * main_arg0.ty.shape.size a) = fun _ => 0 :=
    funext fun a => by fin_cases a <;> decide
  exact Memref.read_access_unit_zero (Elt Ideal) main_arg0 hz (fun a => by rw [congrFun hz a]; simp) _

theorem iblk1 (c : Dev nD) (t : Fin cfg0.N) : iblk m c 1 t = m ((c : Thread nD τ).loc main_arg1) := by
  obtain rfl := fin_N0 t
  have hz : (fun a => win0_1.index t0_0 a * main_arg1.ty.shape.size a) = fun _ => 0 :=
    funext fun a => by fin_cases a <;> decide
  exact Memref.read_access_unit_zero (Elt Ideal) main_arg1 hz (fun a => by rw [congrFun hz a]; simp) _

theorem iblk3 (c : Dev nD) (t : Fin cfg0.N) : iblk m c 3 t = m ((c : Thread nD τ).loc main_arg3) := by
  obtain rfl := fin_N0 t
  have hz : (fun a => win0_3.index t0_0 a * main_arg3.ty.shape.size a) = fun _ => 0 :=
    funext fun a => by fin_cases a <;> decide
  exact Memref.read_access_unit_zero (Elt Ideal) main_arg3 hz (fun a => by rw [congrFun hz a]; simp) _

theorem iblk4 (c : Dev nD) (t : Fin cfg0.N) : iblk m c 4 t = m ((c : Thread nD τ).loc main_arg4) := by
  obtain rfl := fin_N0 t
  have hz : (fun a => win0_4.index t0_0 a * main_arg4.ty.shape.size a) = fun _ => 0 :=
    funext fun a => by fin_cases a <;> decide
  exact Memref.read_access_unit_zero (Elt Ideal) main_arg4 hz (fun a => by rw [congrFun hz a]; simp) _

theorem iblk5 (c : Dev nD) (t : Fin cfg0.N) : iblk m c 5 t = m ((c : Thread nD τ).loc main_arg5) := by
  obtain rfl := fin_N0 t
  have hz : (fun a => win0_5.index t0_0 a * main_arg5.ty.shape.size a) = fun _ => 0 :=
    funext fun a => by fin_cases a <;> decide
  exact Memref.read_access_unit_zero (Elt Ideal) main_arg5 hz (fun a => by rw [congrFun hz a]; simp) _

theorem iblk6 (c : Dev nD) (t : Fin cfg0.N) : iblk m c 6 t = m ((c : Thread nD τ).loc main_arg6) := by
  obtain rfl := fin_N0 t
  have hz : (fun a => win0_6.index t0_0 a * main_arg6.ty.shape.size a) = fun _ => 0 :=
    funext fun a => by fin_cases a <;> decide
  exact Memref.read_access_unit_zero (Elt Ideal) main_arg6 hz (fun a => by rw [congrFun hz a]; simp) _

theorem iblk8 (c : Dev nD) (t : Fin cfg0.N) : iblk m c 8 t = m ((c : Thread nD τ).loc main_arg8) := by
  obtain rfl := fin_N0 t
  have hz : (fun a => win0_8.index t0_0 a * main_arg8.ty.shape.size a) = fun _ => 0 :=
    funext fun a => by fin_cases a <;> decide
  exact Memref.read_access_unit_zero (Elt Ideal) main_arg8 hz (fun a => by rw [congrFun hz a]; simp) _

theorem iblk9 (c : Dev nD) (t : Fin cfg0.N) : iblk m c 9 t = m ((c : Thread nD τ).loc main_arg9) := by
  obtain rfl := fin_N0 t
  have hz : (fun a => win0_9.index t0_0 a * main_arg9.ty.shape.size a) = fun _ => 0 :=
    funext fun a => by fin_cases a <;> decide
  exact Memref.read_access_unit_zero (Elt Ideal) main_arg9 hz (fun a => by rw [congrFun hz a]; simp) _

theorem iblk10 (c : Dev nD) (t : Fin cfg0.N) : iblk m c 10 t = m ((c : Thread nD τ).loc main_arg10) := by
  obtain rfl := fin_N0 t
  have hz : (fun a => win0_10.index t0_0 a * main_arg10.ty.shape.size a) = fun _ => 0 :=
    funext fun a => by fin_cases a <;> decide
  exact Memref.read_access_unit_zero (Elt Ideal) main_arg10 hz (fun a => by rw [congrFun hz a]; simp) _

theorem iblk11 (c : Dev nD) (t : Fin cfg0.N) : iblk m c 11 t = m ((c : Thread nD τ).loc main_arg11) := by
  obtain rfl := fin_N0 t
  have hz : (fun a => win0_11.index t0_0 a * main_arg11.ty.shape.size a) = fun _ => 0 :=
    funext fun a => by fin_cases a <;> decide
  exact Memref.read_access_unit_zero (Elt Ideal) main_arg11 hz (fun a => by rw [congrFun hz a]; simp) _

theorem iblk12 (c : Dev nD) (t : Fin cfg0.N) : iblk m c 12 t = m ((c : Thread nD τ).loc main_arg12) := by
  obtain rfl := fin_N0 t
  have hz : (fun a => win0_12.index t0_0 a * main_arg12.ty.shape.size a) = fun _ => 0 :=
    funext fun a => by fin_cases a <;> decide
  exact Memref.read_access_unit_zero (Elt Ideal) main_arg12 hz (fun a => by rw [congrFun hz a]; simp) _

/-- The output window's block index at the one point is zero on both axes. -/
theorem out_zero : (fun a => win0_13.index t0_0 a * main_v0.ty.shape.size a) = fun _ => 0 :=
  funext fun a => by fin_cases a <;> decide

/-- What the one point writes back is the network of the argument arrays, read through the point's block. -/
theorem flushed_eq (c : Dev nD) (t : Fin cfg0.N) :
    (dats m 0 c).flushed 13 t = ((cfg0.win 13).blk t).view.read (Elt Ideal)
      (net (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))) := by
  rw [Value.flushed13, out_eq, iblk0, iblk1, iblk3, iblk4, iblk5, iblk6, iblk8, iblk9, iblk10, iblk11, iblk12]
  obtain rfl := fin_N0 t
  exact (Memref.read_access_unit_zero (Elt Ideal) main_v0 out_zero (fun a => by rw [congrFun out_zero a]; simp) _).symm

/-- The output array after the run is the network of the argument arrays. -/
theorem final (c : Dev nD) :
    (dats m 0 c).arrAt 13 cfg0.N = net (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12)) :=
  (dats m 0 c).arrAt_eq_of_cover 13 _ (fun t _ => flushed_eq m c t) fun i =>
    ⟨t0_0, flush0_13 t0_0, by
      show i ∈ ((View.whole main_v0).slice (win0_13.rect t0_0)).set
      rw [View.set_slice_whole]
      exact View.mem_set_unit_zero (S := S35x35) out_zero _ i⟩

/-- The run: the output array ends as the network of the argument arrays, which are unchanged. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v0) = net (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Run

end Cert.KernelIdeal.KValue

end
-- ==== Proof.RunP.lean ====
/-
  The reference's @main as one line of host operations.

  @main is printed in six parts of sixty statements each; its 327 host operations are listed as 21 consecutive lists
  (c00 … c20). Each printed part is the line of its lists' operations, and the parts run one after the other, so @main is
  the line of all of them in order. Every operation touches only TensorCore buffers and determines its results.
-/
import proofs.«122528_j48868137894020_1_alg».proof.Proof.RunOpsA
import proofs.«122528_j48868137894020_1_alg».proof.Proof.RunOpsB
import proofs.«122528_j48868137894020_1_alg».proof.Proof.RunOpsC

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The operations of the six printed parts of @main. -/
abbrev p0 : List (HloOp τ sig (Elt F)) := c00 ++ (c01 ++ c02)
abbrev p1 : List (HloOp τ sig (Elt F)) := c03 ++ (c04 ++ c05)
abbrev p2 : List (HloOp τ sig (Elt F)) := c06 ++ (c07 ++ (c08 ++ (c09 ++ (c10 ++ c11))))
abbrev p3 : List (HloOp τ sig (Elt F)) := c12 ++ c13
abbrev p4 : List (HloOp τ sig (Elt F)) := c14 ++ (c15 ++ (c16 ++ c17))
abbrev p5 : List (HloOp τ sig (Elt F)) := c18 ++ (c19 ++ c20)

/-- @main's operations, in order. -/
abbrev ops : List (HloOp τ sig (Elt F)) := p0 ++ (p1 ++ (p2 ++ (p3 ++ (p4 ++ p5))))

set_option maxRecDepth 8192 in
set_option maxHeartbeats 4000000 in
theorem part0_eq (c : Dev nD) : main_part0 (F := F) c = seq p0 := rfl
set_option maxRecDepth 8192 in
set_option maxHeartbeats 4000000 in
theorem part1_eq (c : Dev nD) : main_part1 (F := F) c = seq p1 := rfl
set_option maxRecDepth 8192 in
set_option maxHeartbeats 4000000 in
theorem part2_eq (c : Dev nD) : main_part2 (F := F) c = seq p2 := rfl
set_option maxRecDepth 8192 in
set_option maxHeartbeats 4000000 in
theorem part3_eq (c : Dev nD) : main_part3 (F := F) c = seq p3 := rfl
set_option maxRecDepth 8192 in
set_option maxHeartbeats 4000000 in
theorem part4_eq (c : Dev nD) : main_part4 (F := F) c = seq p4 := rfl
set_option maxRecDepth 8192 in
set_option maxHeartbeats 4000000 in
theorem part5_eq (c : Dev nD) : main_part5 (F := F) c = seq p5 := rfl

/-- @main is the line of its operations. -/
theorem main_eq (c : Dev nD) : main (F := F) c = seq ops := by
  show (do main_part0 c; main_part1 c; main_part2 c; main_part3 c; main_part4 c; main_part5 c) = seq (p0 ++ (p1 ++ (p2 ++ (p3 ++ (p4 ++ p5)))))
  rw [part0_eq, part1_eq, part2_eq, part3_eq, part4_eq, part5_eq]
  rw [seq_append p0, seq_append p1, seq_append p2, seq_append p3, seq_append p4]

theorem scopedRefs_eq : (Finset.univ.filter fun b : Ref sig .tc => b.isScoped) = ∅ := by decide
theorem scopedSems_eq : (Finset.univ.filter fun sm : SemLoc sig => sm.isScoped .tc) = ∅ := by decide

/-- Every operation touches only TensorCore buffers. -/
theorem ops_sub : (ops : List (HloOp τ sig (Elt F))).Forall fun op => op.bufs ⊆ tcRefs τ sig := by
  simp only [List.forall_append]
  exact ⟨⟨c00_sub, c01_sub, c02_sub⟩, ⟨c03_sub, c04_sub, c05_sub⟩, ⟨c06_sub, c07_sub, c08_sub, c09_sub, c10_sub, c11_sub⟩,
    ⟨c12_sub, c13_sub⟩, ⟨c14_sub, c15_sub, c16_sub, c17_sub⟩, c18_sub, c19_sub, c20_sub⟩

/-- Every operation determines its results. -/
theorem ops_fresh : ∀ op ∈ (ops : List (HloOp τ sig (Elt F))), op.fresh = ∅ := by
  intro op h
  simp only [List.mem_append, or_assoc] at h
  rcases h with h | h | h | h | h | h | h | h | h | h | h | h | h | h | h | h | h | h | h | h | h
  · exact c00_fresh op h
  · exact c01_fresh op h
  · exact c02_fresh op h
  · exact c03_fresh op h
  · exact c04_fresh op h
  · exact c05_fresh op h
  · exact c06_fresh op h
  · exact c07_fresh op h
  · exact c08_fresh op h
  · exact c09_fresh op h
  · exact c10_fresh op h
  · exact c11_fresh op h
  · exact c12_fresh op h
  · exact c13_fresh op h
  · exact c14_fresh op h
  · exact c15_fresh op h
  · exact c16_fresh op h
  · exact c17_fresh op h
  · exact c18_fresh op h
  · exact c19_fresh op h
  · exact c20_fresh op h

end Cert.ReferenceIdeal.ValueP

end
-- ==== Proof.RefShapeTable.lean ====
/- The declared shape of each reshape's result buffer in the reference's line of host operations: one line per
   reshape operation of Proof/RunOpsA, B, C, in order. A reshape's result is stated at the shape its buffer was
   declared with; each line says which literal shape that is, and holds by unfolding the buffer table. -/
import proofs.«122528_j48868137894020_1_alg».proof.Proof.RunP

namespace Cert.ReferenceIdeal.RefRun

open Cert.ReferenceIdeal Idealize.ShloMosaic

theorem shape_main_v28 : main_v28.ty.shape = S35x140 := rfl
theorem shape_main_v31 : main_v31.ty.shape = S140x140 := rfl
theorem shape_main_v35 : main_v35.ty.shape = S140x140 := rfl
theorem shape_main_v39 : main_v39.ty.shape = S140 := rfl
theorem shape_main_v45 : main_v45.ty.shape = S140 := rfl
theorem shape_main_v51 : main_v51.ty.shape = S140 := rfl
theorem shape_main_v62 : main_v62.ty.shape = S35x140 := rfl
theorem shape_main_v65 : main_v65.ty.shape = S140x140 := rfl
theorem shape_main_v69 : main_v69.ty.shape = S140x140 := rfl
theorem shape_main_v73 : main_v73.ty.shape = S140 := rfl
theorem shape_main_v79 : main_v79.ty.shape = S140 := rfl
theorem shape_main_v85 : main_v85.ty.shape = S140 := rfl
theorem shape_main_v96 : main_v96.ty.shape = S35x140 := rfl
theorem shape_main_v99 : main_v99.ty.shape = S140x140 := rfl
theorem shape_main_v103 : main_v103.ty.shape = S140x140 := rfl
theorem shape_main_v107 : main_v107.ty.shape = S140 := rfl
theorem shape_main_v113 : main_v113.ty.shape = S140 := rfl
theorem shape_main_v122 : main_v122.ty.shape = S35x140 := rfl
theorem shape_main_v125 : main_v125.ty.shape = S140x140 := rfl
theorem shape_main_v129 : main_v129.ty.shape = S140x140 := rfl
theorem shape_main_v133 : main_v133.ty.shape = S140 := rfl
theorem shape_main_v139 : main_v139.ty.shape = S140 := rfl
theorem shape_main_v145 : main_v145.ty.shape = S140 := rfl
theorem shape_main_v161 : main_v161.ty.shape = S140x280 := rfl
theorem shape_main_v164 : main_v164.ty.shape = S280x280 := rfl
theorem shape_main_v168 : main_v168.ty.shape = S280x280 := rfl
theorem shape_main_v172 : main_v172.ty.shape = S280 := rfl
theorem shape_main_v178 : main_v178.ty.shape = S280 := rfl
theorem shape_main_v184 : main_v184.ty.shape = S280 := rfl
theorem shape_main_v195 : main_v195.ty.shape = S140x280 := rfl
theorem shape_main_v198 : main_v198.ty.shape = S280x280 := rfl
theorem shape_main_v202 : main_v202.ty.shape = S280x280 := rfl
theorem shape_main_v206 : main_v206.ty.shape = S280 := rfl
theorem shape_main_v212 : main_v212.ty.shape = S280 := rfl
theorem shape_main_v218 : main_v218.ty.shape = S280 := rfl
theorem shape_main_v229 : main_v229.ty.shape = S140x280 := rfl
theorem shape_main_v232 : main_v232.ty.shape = S280x280 := rfl
theorem shape_main_v236 : main_v236.ty.shape = S280x280 := rfl
theorem shape_main_v240 : main_v240.ty.shape = S280 := rfl
theorem shape_main_v246 : main_v246.ty.shape = S280 := rfl
theorem shape_main_v255 : main_v255.ty.shape = S140x280 := rfl
theorem shape_main_v258 : main_v258.ty.shape = S280x280 := rfl
theorem shape_main_v262 : main_v262.ty.shape = S280x280 := rfl
theorem shape_main_v266 : main_v266.ty.shape = S280 := rfl
theorem shape_main_v272 : main_v272.ty.shape = S280 := rfl
theorem shape_main_v278 : main_v278.ty.shape = S280 := rfl

end Cert.ReferenceIdeal.RefRun
-- ==== Proof.RefEval.lean ====
/-
  Evaluating the reference's line of host operations.

  The contents of a buffer after a line of operations are found by walking the line backwards to the operation that
  wrote it; its operands are found the same way. Along the way each host operation is read as the cell's whole-matrix
  function it computes: a dot_general as the matrix product, a slice and reshape of a stack as its plane, a cut row
  flattened and broadcast twice as the repeated row, the splat of the zero word as the zero matrix, 1 / (1 + exp (−x))
  as the logistic function. A reshape's result is stated at the shape its buffer was declared with; the table of those
  shapes is Proof/RefShapeTable.lean.
-/
import proofs.«122528_j48868137894020_1_alg».proof.Proof.RunP
import proofs.«122528_j48868137894020_1_alg».proof.Proof.RefShapeTable
import proofs.«122528_j48868137894020_1_alg».proof.Proof.Cell

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo Idealize.ShloMosaic.ValueIdx Cert.Cell

/-! ## A value's contents and its buffer's contents

An outlined function's operations name each buffer together with the type of the value it holds, and carry contents
from one to the other along the equation of the two types. The two types are the same, so the transport is the
identity. -/

/-- Contents carried to the buffer's type and back are unchanged. -/
theorem ofBuf_toBuf {T : BufTy} (x : TRef sig T) (v : T.Contents (Elt Ideal)) : x.ofBuf (x.toBuf v) = v := by
  simp only [TRef.ofBuf, TRef.toBuf, cast_cast, cast_eq]

theorem toBuf_main_v157 (h1 : main_v157.ty = ⟨S35x140, .f32⟩) (h2 h3) (v : (⟨S35x140, .f32⟩ : BufTy).Contents (Elt Ideal)) :
    (TRef.of (T := ⟨S35x140, .f32⟩) main_v157 h1 h2 h3).toBuf v = v := rfl
theorem toBuf_main_v290 (h1 : main_v290.ty = ⟨S35x280, .f32⟩) (h2 h3) (v : (⟨S35x280, .f32⟩ : BufTy).Contents (Elt Ideal)) :
    (TRef.of (T := ⟨S35x280, .f32⟩) main_v290 h1 h2 h3).toBuf v = v := rfl
theorem toBuf_main_v295 (h1 : main_v295.ty = ⟨S35x35, .f32⟩) (h2 h3) (v : (⟨S35x35, .f32⟩ : BufTy).Contents (Elt Ideal)) :
    (TRef.of (T := ⟨S35x35, .f32⟩) main_v295 h1 h2 h3).toBuf v = v := rfl
theorem ofBuf_main_v156 (h1 : main_v156.ty = ⟨S35x140, .f32⟩) (h2 h3) (v : main_v156.ty.Contents (Elt Ideal)) :
    (TRef.of (T := ⟨S35x140, .f32⟩) main_v156 h1 h2 h3).ofBuf v = v := rfl
theorem ofBuf_main_v289 (h1 : main_v289.ty = ⟨S35x280, .f32⟩) (h2 h3) (v : main_v289.ty.Contents (Elt Ideal)) :
    (TRef.of (T := ⟨S35x280, .f32⟩) main_v289 h1 h2 h3).ofBuf v = v := rfl
theorem ofBuf_main_v294 (h1 : main_v294.ty = ⟨S35x35, .f32⟩) (h2 h3) (v : main_v294.ty.Contents (Elt Ideal)) :
    (TRef.of (T := ⟨S35x35, .f32⟩) main_v294 h1 h2 h3).ofBuf v = v := rfl

/-! ## A cut row, flattened -/

variable {N R : Nat}

/-- Row o of a matrix, cut out and flattened, is that row as a vector. (Repeated down M rows it is then the row in every
    row, by unfolding.) -/
theorem slice_row_vec (b : Mat R N) (o : Nat) (ho : o < R)
    (hs : (⟨2, ![R, N]⟩ : Shape).Slices ![o, 0] ⟨2, ![1, N]⟩) (hc : (⟨2, ![1, N]⟩ : Shape).ShapeCasts ⟨1, ![N]⟩) :
    shapeCast ⟨1, ![N]⟩ (extractStridedSlice ⟨2, ![1, N]⟩ ![o, 0] b hs) hc
      = fun j => b (ix2 ⟨o, ho⟩ ⟨(j 0).val, (j 0).isLt⟩) := by
  funext j
  obtain ⟨c, rfl⟩ : ∃ c : Fin N, j = ix1 c := ⟨j 0, eq_ix1 j⟩
  rw [shapeCast_1a_a_apply]
  refine extractStridedSlice_apply _ b hs _ (ix2 ⟨o, ho⟩ c) fun a => ?_
  match a with
  | ⟨0, _⟩ => rfl
  | ⟨1, _⟩ => show c.val = 0 + c.val; omega

/-- Walks a line of host operations back from a buffer to the cell's whole-matrix functions of the contents the line
    started from. -/
macro "ref_eval" : tactic =>
  `(tactic| simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne',
      shape_main_v28, shape_main_v31, shape_main_v35, shape_main_v39, shape_main_v45, shape_main_v51, shape_main_v62, shape_main_v65, shape_main_v69, shape_main_v73, shape_main_v79, shape_main_v85, shape_main_v96, shape_main_v99, shape_main_v103, shape_main_v107, shape_main_v113, shape_main_v122, shape_main_v125, shape_main_v129, shape_main_v133, shape_main_v139, shape_main_v145, shape_main_v161, shape_main_v164, shape_main_v168, shape_main_v172, shape_main_v178, shape_main_v184, shape_main_v195, shape_main_v198, shape_main_v202, shape_main_v206, shape_main_v212, shape_main_v218, shape_main_v229, shape_main_v232, shape_main_v236, shape_main_v240, shape_main_v246, shape_main_v255, shape_main_v258, shape_main_v262, shape_main_v266, shape_main_v272, shape_main_v278,
      ofBuf_toBuf, toBuf_main_v157, toBuf_main_v290, toBuf_main_v295, ofBuf_main_v156, ofBuf_main_v289, ofBuf_main_v294,
      Cert.WholeMat.hostSplat_zero, Cert.WholeMat.dotGeneral_eq_mm dot_S35x35_S35x140_S35x140_1_0_0_1_n_n rfl, Cert.WholeMat.dotGeneral_eq_mm dot_S35x140_S140x140_S35x140_1_0_0_1_n_n rfl, Cert.WholeMat.dotGeneral_eq_mm dot_S35x140_S140x280_S35x280_1_0_0_1_n_n rfl, Cert.WholeMat.dotGeneral_eq_mm dot_S35x280_S280x280_S35x280_1_0_0_1_n_n rfl, Cert.WholeMat.dotGeneral_eq_mm dot_S35x35_S35x280_S35x280_1_0_0_1_n_n rfl, Cert.WholeMat.dotGeneral_eq_mm dot_S35x280_S280x35_S35x35_1_0_0_1_n_n rfl,
      Cert.WholeMat.slice_plane (R := 4) _ 0 (by decide), Cert.WholeMat.slice_plane (R := 4) _ 1 (by decide), Cert.WholeMat.slice_plane (R := 4) _ 2 (by decide), Cert.WholeMat.slice_plane (R := 4) _ 3 (by decide),
      Cert.WholeMat.hostVec_rowb, slice_row_vec (R := 4) _ 0 (by decide), slice_row_vec (R := 4) _ 1 (by decide), slice_row_vec (R := 4) _ 2 (by decide), slice_row_vec (R := 4) _ 3 (by decide), slice_row_vec (R := 3) _ 0 (by decide), slice_row_vec (R := 3) _ 1 (by decide), slice_row_vec (R := 3) _ 2 (by decide),
      Cert.WholeMat.hostLogistic, Cert.WholeMat.hostTanh, Cert.Cell.mm_Z_right, Cert.Cell.mm_Z_left])

end Cert.ReferenceIdeal.RefRun

end
-- ==== Proof.RefLayer1.lean ====
/-
  The reference's first cell.

  The first 177 host operations compute the normalised Laplacian, the zero states, the four gates of the first cell and
  its rectified hidden state. From any contents W of the buffers, the hidden state's buffer ends at the cell's function
  `hid` of W's five arguments: the Laplacian is only ever multiplied with the zero state, and that product is zero
  whatever the Laplacian is. No operation writes an argument.
-/
import proofs.«122528_j48868137894020_1_alg».proof.Proof.RefEval

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo Idealize.ShloMosaic.ValueIdx Cert.Cell

/-- The operations of the first cell (operations 0 … 176 of @main). -/
abbrev L1 : List (HloOp τ sig (Elt Ideal)) := c00 ++ (c01 ++ (c02 ++ (c03 ++ (c04 ++ (c05 ++ (c06 ++ (c07 ++ (c08 ++ (c09)))))))))

set_option maxRecDepth 8192 in
set_option maxHeartbeats 4000000 in
/-- After the first cell's operations the rectified hidden state is the cell's function of the arguments. -/
theorem stage1 (W : Valuation τ sig (Elt Ideal)) :
    after L1 W (Proc.devRef .tc main_v157)
      = hid (W (Proc.devRef .tc main_arg0)) (W (Proc.devRef .tc main_arg1)) (W (Proc.devRef .tc main_arg3)) (W (Proc.devRef .tc main_arg4)) (W (Proc.devRef .tc main_arg5)) := by
  ref_eval <;> rfl

/-- The line leaves argument 0 as it found it: no operation writes it. -/
theorem keepL1_arg0 (W : Valuation τ sig (Elt Ideal)) :
    after L1 W (Proc.devRef .tc main_arg0) = W (Proc.devRef .tc main_arg0) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 1 as it found it: no operation writes it. -/
theorem keepL1_arg1 (W : Valuation τ sig (Elt Ideal)) :
    after L1 W (Proc.devRef .tc main_arg1) = W (Proc.devRef .tc main_arg1) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 2 as it found it: no operation writes it. -/
theorem keepL1_arg2 (W : Valuation τ sig (Elt Ideal)) :
    after L1 W (Proc.devRef .tc main_arg2) = W (Proc.devRef .tc main_arg2) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 3 as it found it: no operation writes it. -/
theorem keepL1_arg3 (W : Valuation τ sig (Elt Ideal)) :
    after L1 W (Proc.devRef .tc main_arg3) = W (Proc.devRef .tc main_arg3) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 4 as it found it: no operation writes it. -/
theorem keepL1_arg4 (W : Valuation τ sig (Elt Ideal)) :
    after L1 W (Proc.devRef .tc main_arg4) = W (Proc.devRef .tc main_arg4) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 5 as it found it: no operation writes it. -/
theorem keepL1_arg5 (W : Valuation τ sig (Elt Ideal)) :
    after L1 W (Proc.devRef .tc main_arg5) = W (Proc.devRef .tc main_arg5) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 6 as it found it: no operation writes it. -/
theorem keepL1_arg6 (W : Valuation τ sig (Elt Ideal)) :
    after L1 W (Proc.devRef .tc main_arg6) = W (Proc.devRef .tc main_arg6) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 7 as it found it: no operation writes it. -/
theorem keepL1_arg7 (W : Valuation τ sig (Elt Ideal)) :
    after L1 W (Proc.devRef .tc main_arg7) = W (Proc.devRef .tc main_arg7) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 8 as it found it: no operation writes it. -/
theorem keepL1_arg8 (W : Valuation τ sig (Elt Ideal)) :
    after L1 W (Proc.devRef .tc main_arg8) = W (Proc.devRef .tc main_arg8) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 9 as it found it: no operation writes it. -/
theorem keepL1_arg9 (W : Valuation τ sig (Elt Ideal)) :
    after L1 W (Proc.devRef .tc main_arg9) = W (Proc.devRef .tc main_arg9) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 10 as it found it: no operation writes it. -/
theorem keepL1_arg10 (W : Valuation τ sig (Elt Ideal)) :
    after L1 W (Proc.devRef .tc main_arg10) = W (Proc.devRef .tc main_arg10) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 11 as it found it: no operation writes it. -/
theorem keepL1_arg11 (W : Valuation τ sig (Elt Ideal)) :
    after L1 W (Proc.devRef .tc main_arg11) = W (Proc.devRef .tc main_arg11) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 12 as it found it: no operation writes it. -/
theorem keepL1_arg12 (W : Valuation τ sig (Elt Ideal)) :
    after L1 W (Proc.devRef .tc main_arg12) = W (Proc.devRef .tc main_arg12) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

end Cert.ReferenceIdeal.RefRun

end
-- ==== Proof.RefLayer2.lean ====
/-
  The reference's second cell and dense layer.

  Operations 177 … 326 compute the second cell from the first cell's rectified hidden state, then the dense layer with
  its bias vector and the rectifier. From any contents W of the buffers, the result's buffer ends at the rectified
  dense layer of the cell's function `hid` of W's hidden state and arguments: again the Laplacian is only multiplied
  with the zero state. No operation writes an argument.
-/
import proofs.«122528_j48868137894020_1_alg».proof.Proof.RefEval

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo Idealize.ShloMosaic.ValueIdx Cert.Cell

/-- The operations of the second cell and the dense layer (operations 177 … 326 of @main). -/
abbrev L2 : List (HloOp τ sig (Elt Ideal)) := c10 ++ (c11 ++ (c12 ++ (c13 ++ (c14 ++ (c15 ++ (c16 ++ (c17 ++ (c18 ++ (c19 ++ (c20))))))))))

set_option maxRecDepth 8192 in
set_option maxHeartbeats 4000000 in
/-- After the second cell's and the dense layer's operations the result is the rectified dense layer of the cell. -/
theorem stage2 (W : Valuation τ sig (Elt Ideal)) :
    after L2 W (Proc.devRef .tc main_v295)
      = maximumf (addf (mm (hid (W (Proc.devRef .tc main_v157)) (W (Proc.devRef .tc main_arg6)) (W (Proc.devRef .tc main_arg8)) (W (Proc.devRef .tc main_arg9)) (W (Proc.devRef .tc main_arg10))) (W (Proc.devRef .tc main_arg11))) (vecb (W (Proc.devRef .tc main_arg12)) 35)) (Z 35 35) := by
  ref_eval <;> rfl

/-- The line leaves argument 0 as it found it: no operation writes it. -/
theorem keepL2_arg0 (W : Valuation τ sig (Elt Ideal)) :
    after L2 W (Proc.devRef .tc main_arg0) = W (Proc.devRef .tc main_arg0) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 1 as it found it: no operation writes it. -/
theorem keepL2_arg1 (W : Valuation τ sig (Elt Ideal)) :
    after L2 W (Proc.devRef .tc main_arg1) = W (Proc.devRef .tc main_arg1) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 2 as it found it: no operation writes it. -/
theorem keepL2_arg2 (W : Valuation τ sig (Elt Ideal)) :
    after L2 W (Proc.devRef .tc main_arg2) = W (Proc.devRef .tc main_arg2) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 3 as it found it: no operation writes it. -/
theorem keepL2_arg3 (W : Valuation τ sig (Elt Ideal)) :
    after L2 W (Proc.devRef .tc main_arg3) = W (Proc.devRef .tc main_arg3) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 4 as it found it: no operation writes it. -/
theorem keepL2_arg4 (W : Valuation τ sig (Elt Ideal)) :
    after L2 W (Proc.devRef .tc main_arg4) = W (Proc.devRef .tc main_arg4) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 5 as it found it: no operation writes it. -/
theorem keepL2_arg5 (W : Valuation τ sig (Elt Ideal)) :
    after L2 W (Proc.devRef .tc main_arg5) = W (Proc.devRef .tc main_arg5) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 6 as it found it: no operation writes it. -/
theorem keepL2_arg6 (W : Valuation τ sig (Elt Ideal)) :
    after L2 W (Proc.devRef .tc main_arg6) = W (Proc.devRef .tc main_arg6) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 7 as it found it: no operation writes it. -/
theorem keepL2_arg7 (W : Valuation τ sig (Elt Ideal)) :
    after L2 W (Proc.devRef .tc main_arg7) = W (Proc.devRef .tc main_arg7) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 8 as it found it: no operation writes it. -/
theorem keepL2_arg8 (W : Valuation τ sig (Elt Ideal)) :
    after L2 W (Proc.devRef .tc main_arg8) = W (Proc.devRef .tc main_arg8) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 9 as it found it: no operation writes it. -/
theorem keepL2_arg9 (W : Valuation τ sig (Elt Ideal)) :
    after L2 W (Proc.devRef .tc main_arg9) = W (Proc.devRef .tc main_arg9) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 10 as it found it: no operation writes it. -/
theorem keepL2_arg10 (W : Valuation τ sig (Elt Ideal)) :
    after L2 W (Proc.devRef .tc main_arg10) = W (Proc.devRef .tc main_arg10) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 11 as it found it: no operation writes it. -/
theorem keepL2_arg11 (W : Valuation τ sig (Elt Ideal)) :
    after L2 W (Proc.devRef .tc main_arg11) = W (Proc.devRef .tc main_arg11) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

/-- The line leaves argument 12 as it found it: no operation writes it. -/
theorem keepL2_arg12 (W : Valuation τ sig (Elt Ideal)) :
    after L2 W (Proc.devRef .tc main_arg12) = W (Proc.devRef .tc main_arg12) := by
  simp (disch := decide) only [StableHlo.after_append, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']

end Cert.ReferenceIdeal.RefRun

end
-- ==== Proof.RefRun.lean ====
/-
  The reference's run.

  @main's operations are the first cell's followed by the second cell's and the dense layer's, so the contents after
  the whole line are those after the second stretch from those after the first. The result buffer therefore ends at the
  network's function of the thirteen arguments' launch contents (eleven of them: the recurrent weights of both cells
  never matter), and the arguments end as launched. Every weakly fair execution of @main terminates in such a state.
-/
import proofs.«122528_j48868137894020_1_alg».proof.Proof.RefLayer1
import proofs.«122528_j48868137894020_1_alg».proof.Proof.RefLayer2

noncomputable section

namespace Cert.ReferenceIdeal.RefRun

open Cert.ReferenceIdeal Cert.ReferenceIdeal.Gen Cert.ReferenceIdeal.ValueP Idealize.ShloMosaic Idealize.ShloMosaic.TcCoe Idealize.SL.Sem Idealize.ShloMosaic.StableHlo Cert.Cell

/-- @main's operations are the first cell's followed by the second cell's and the dense layer's. -/
theorem ops_split : (ops : List (HloOp τ sig (Elt Ideal))) = L1 ++ L2 := by
  simp only [ops, p0, p1, p2, p3, p4, p5, L1, L2, List.append_assoc]

/-- The result buffer after @main's operations: the network's function of the arguments' launch contents. -/
theorem value (m : (ℓ : Loc nD τ sig) → Buf (Elt Ideal) ℓ) (c : Dev nD) :
    after ops (launchContents m c) (Proc.devRef .tc main_v295)
      = net (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [ops_split, StableHlo.after_append, stage2, stage1, keepL1_arg6, keepL1_arg8, keepL1_arg9, keepL1_arg10, keepL1_arg11,
    keepL1_arg12]
  rfl

theorem kept_arg0 (m : (ℓ : Loc nD τ sig) → Buf (Elt Ideal) ℓ) (c : Dev nD) :
    after ops (launchContents m c) (Proc.devRef .tc main_arg0) = m ((c.tc : Thread nD τ).loc main_arg0) := by
  rw [ops_split, StableHlo.after_append, keepL2_arg0, keepL1_arg0]
theorem kept_arg1 (m : (ℓ : Loc nD τ sig) → Buf (Elt Ideal) ℓ) (c : Dev nD) :
    after ops (launchContents m c) (Proc.devRef .tc main_arg1) = m ((c.tc : Thread nD τ).loc main_arg1) := by
  rw [ops_split, StableHlo.after_append, keepL2_arg1, keepL1_arg1]
theorem kept_arg2 (m : (ℓ : Loc nD τ sig) → Buf (Elt Ideal) ℓ) (c : Dev nD) :
    after ops (launchContents m c) (Proc.devRef .tc main_arg2) = m ((c.tc : Thread nD τ).loc main_arg2) := by
  rw [ops_split, StableHlo.after_append, keepL2_arg2, keepL1_arg2]
theorem kept_arg3 (m : (ℓ : Loc nD τ sig) → Buf (Elt Ideal) ℓ) (c : Dev nD) :
    after ops (launchContents m c) (Proc.devRef .tc main_arg3) = m ((c.tc : Thread nD τ).loc main_arg3) := by
  rw [ops_split, StableHlo.after_append, keepL2_arg3, keepL1_arg3]
theorem kept_arg4 (m : (ℓ : Loc nD τ sig) → Buf (Elt Ideal) ℓ) (c : Dev nD) :
    after ops (launchContents m c) (Proc.devRef .tc main_arg4) = m ((c.tc : Thread nD τ).loc main_arg4) := by
  rw [ops_split, StableHlo.after_append, keepL2_arg4, keepL1_arg4]
theorem kept_arg5 (m : (ℓ : Loc nD τ sig) → Buf (Elt Ideal) ℓ) (c : Dev nD) :
    after ops (launchContents m c) (Proc.devRef .tc main_arg5) = m ((c.tc : Thread nD τ).loc main_arg5) := by
  rw [ops_split, StableHlo.after_append, keepL2_arg5, keepL1_arg5]
theorem kept_arg6 (m : (ℓ : Loc nD τ sig) → Buf (Elt Ideal) ℓ) (c : Dev nD) :
    after ops (launchContents m c) (Proc.devRef .tc main_arg6) = m ((c.tc : Thread nD τ).loc main_arg6) := by
  rw [ops_split, StableHlo.after_append, keepL2_arg6, keepL1_arg6]
theorem kept_arg7 (m : (ℓ : Loc nD τ sig) → Buf (Elt Ideal) ℓ) (c : Dev nD) :
    after ops (launchContents m c) (Proc.devRef .tc main_arg7) = m ((c.tc : Thread nD τ).loc main_arg7) := by
  rw [ops_split, StableHlo.after_append, keepL2_arg7, keepL1_arg7]
theorem kept_arg8 (m : (ℓ : Loc nD τ sig) → Buf (Elt Ideal) ℓ) (c : Dev nD) :
    after ops (launchContents m c) (Proc.devRef .tc main_arg8) = m ((c.tc : Thread nD τ).loc main_arg8) := by
  rw [ops_split, StableHlo.after_append, keepL2_arg8, keepL1_arg8]
theorem kept_arg9 (m : (ℓ : Loc nD τ sig) → Buf (Elt Ideal) ℓ) (c : Dev nD) :
    after ops (launchContents m c) (Proc.devRef .tc main_arg9) = m ((c.tc : Thread nD τ).loc main_arg9) := by
  rw [ops_split, StableHlo.after_append, keepL2_arg9, keepL1_arg9]
theorem kept_arg10 (m : (ℓ : Loc nD τ sig) → Buf (Elt Ideal) ℓ) (c : Dev nD) :
    after ops (launchContents m c) (Proc.devRef .tc main_arg10) = m ((c.tc : Thread nD τ).loc main_arg10) := by
  rw [ops_split, StableHlo.after_append, keepL2_arg10, keepL1_arg10]
theorem kept_arg11 (m : (ℓ : Loc nD τ sig) → Buf (Elt Ideal) ℓ) (c : Dev nD) :
    after ops (launchContents m c) (Proc.devRef .tc main_arg11) = m ((c.tc : Thread nD τ).loc main_arg11) := by
  rw [ops_split, StableHlo.after_append, keepL2_arg11, keepL1_arg11]
theorem kept_arg12 (m : (ℓ : Loc nD τ sig) → Buf (Elt Ideal) ℓ) (c : Dev nD) :
    after ops (launchContents m c) (Proc.devRef .tc main_arg12) = m ((c.tc : Thread nD τ).loc main_arg12) := by
  rw [ops_split, StableHlo.after_append, keepL2_arg12, keepL1_arg12]

/-- Every weakly fair execution of the reference's @main terminates with the result at the network's function of the
    arguments and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v295) = net (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v295).trans (value m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c),
      (h c main_arg11).trans (kept_arg11 m c),
      (h c main_arg12).trans (kept_arg12 m c)⟩)
    (run_seq scopedRefs_eq scopedSems_eq defs main (fun _ => ops) main_eq (fun _ => ops_sub) m ρ (fun _ => ops_fresh))

end Cert.ReferenceIdeal.RefRun

end
-- ==== Proof.lean ====
/-
  The certificate: a Pallas kernel of a two-layer graph-convolutional LSTM network (each cell started from the zero
  hidden and cell states) followed by a dense layer, against its jnp reference, equal as functions on the extended reals.

  Both programs compute, gate by gate, σ or tanh of X · W k plus bias rows, and in both every graph-convolution term is
  a matrix product with the zero hidden state. The two programs normalise the graph Laplacian differently (the kernel
  scales column j by the inverse root of the j-th COLUMN sum, the reference by that of the j-th ROW sum), but over the
  extended reals x · 0 = 0 for every x, so that product is the zero matrix in both and the Laplacian never reaches the
  result. What remains is one function of eleven of the thirteen arguments (Proof/Cell.lean `net`): the kernel's stored
  block is that function (Proof/KernelValue.lean, over the generated value leg), and the reference's result buffer ends
  at it (Proof/RefRun.lean, over its line of host operations). A change of float format is the identity on extended
  reals, the vector unit's product into a zero accumulator and the host's dot_general are the same sum, and the kernel's
  logistic is the reference's 1 / (1 + exp (−x)). The three frames are the kernels' generated frames and the reference's
  run with its value dropped; the idealization rewrote nothing, so `preserves` is trivial.
-/
import proofs.«122528_j48868137894020_1_alg».proof.Defs
import proofs.«122528_j48868137894020_1_alg».proof.Proof.Gen.Kernel
import proofs.«122528_j48868137894020_1_alg».proof.Proof.Gen.Kernel.Skeleton
import proofs.«122528_j48868137894020_1_alg».proof.Proof.Gen.Kernel.Launch
import proofs.«122528_j48868137894020_1_alg».proof.Proof.Gen.Kernel.Points
import proofs.«122528_j48868137894020_1_alg».proof.Proof.Gen.Kernel.Frame
import proofs.«122528_j48868137894020_1_alg».proof.Proof.Gen.KernelIdeal
import proofs.«122528_j48868137894020_1_alg».proof.Proof.Gen.KernelIdeal.Skeleton
import proofs.«122528_j48868137894020_1_alg».proof.Proof.Gen.KernelIdeal.Launch
import proofs.«122528_j48868137894020_1_alg».proof.Proof.Gen.KernelIdeal.Points
import proofs.«122528_j48868137894020_1_alg».proof.Proof.Gen.KernelIdeal.Frame
import proofs.«122528_j48868137894020_1_alg».proof.Proof.Gen.ReferenceIdeal
import proofs.«122528_j48868137894020_1_alg».proof.Proof.Gen.Pre_finite_inputs
import proofs.«122528_j48868137894020_1_alg».proof.Proof.Gen.KernelIdeal.Value
import proofs.«122528_j48868137894020_1_alg».proof.Proof.KernelValue
import proofs.«122528_j48868137894020_1_alg».proof.Proof.RefRun
import Idealize.ShloMosaic.Adequacy
import Idealize.ShloMosaic.Init

noncomputable section

namespace Cert.Proof

open Idealize.ShloMosaic Idealize.SL.Sem

/-- The word-level kernel's frame: generated. -/
theorem frame_k : Cert.frame_Kernel := fun m ρ _ => Cert.Kernel.Gen.frame m ρ

/-- The idealized kernel's frame: generated. -/
theorem frame_ki : Cert.frame_KernelIdeal := fun m ρ _ => Cert.KernelIdeal.Gen.frame m ρ

/-- The reference's frame: its run, the value dropped. -/
theorem frame_ri : Cert.frame_ReferenceIdeal := fun m ρ _ =>
  (θ_run Cert.ReferenceIdeal.defs _ _).mono (fun _ h c => (h c).2) (Cert.ReferenceIdeal.RefRun.run m ρ)

/-- From memories that agree on the arguments both programs end with the result at the network's function of the
    arguments: the kernel's stored block and the reference's last buffer are that one function. -/
theorem algebraic : Cert.algebraic_KernelIdeal_ReferenceIdeal := by
  intro m ρ m' ρ' _ hagree
  refine ⟨fun c => Cert.Cell.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.KValue.run m ρ, ?_⟩
  refine (θ_run Cert.ReferenceIdeal.defs _ _).mono (fun _ h c => ⟨(h c).1.trans ?_, (h c).2⟩)
    (Cert.ReferenceIdeal.RefRun.run m' ρ')
  obtain ⟨h0, h1, _, h3, h4, h5, h6, _, h8, h9, h10, h11, h12⟩ := hagree c
  rw [h0, h1, h3, h4, h5, h6, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
